-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_12288" .f32 0x38AAAAAB#32 ((1 / 12288 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S12288x128 .f32) (main_arg1 : IVec S2x393216 32) (main_arg2 : FVec F S128x128 .f32) (main_arg3 : FVec F S128x128 .f32) (main_arg4 : FVec F S128 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S_ : Shape := ⟨0, ![]⟩
abbrev S12288 : Shape := ⟨1, ![12288]⟩
abbrev S12288x1 : Shape := ⟨2, ![12288, 1]⟩
abbrev S2048x128 : Shape := ⟨2, ![2048, 128]⟩
abbrev S1024x128 : Shape := ⟨2, ![1024, 128]⟩
abbrev S2048x1 : Shape := ⟨2, ![2048, 1]⟩
abbrev S2048x1024 : Shape := ⟨2, ![2048, 1024]⟩
abbrev S2048 : Shape := ⟨1, ![2048]⟩
abbrev S1x393216 : Shape := ⟨2, ![1, 393216]⟩
abbrev S393216 : Shape := ⟨1, ![393216]⟩
abbrev S405504 : Shape := ⟨1, ![405504]⟩
abbrev S405504x1 : Shape := ⟨2, ![405504, 1]⟩
abbrev S405504x128 : Shape := ⟨2, ![405504, 128]⟩
abbrev S1x128 : Shape := ⟨2, ![1, 128]⟩

abbrev nBuf : Space → Nat
  | .hbm => 81
  | .vmem => 7
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S12288x128, .f32⟩
  | .hbm, ⟨6, _⟩ => ⟨S12288x128, .f32⟩
  | .hbm, ⟨7, _⟩ => ⟨S_, .f32⟩
  | .hbm, ⟨8, _⟩ => ⟨S12288, .f32⟩
  | .hbm, ⟨9, _⟩ => ⟨S12288x1, .f32⟩
  | .hbm, ⟨10, _⟩ => ⟨S12288x1, .f32⟩
  | .hbm, ⟨11, _⟩ => ⟨S_, .f32⟩
  | .hbm, ⟨12, _⟩ => ⟨S_, .f32⟩
  | .hbm, ⟨13, _⟩ => ⟨S12288x1, .f32⟩
  | .hbm, ⟨14, _⟩ => ⟨S12288x1, .f32⟩
  | .hbm, ⟨15, _⟩ => ⟨S12288x128, .f32⟩
  | .hbm, ⟨16, _⟩ => ⟨S12288x128, .f32⟩
  | .hbm, ⟨17, _⟩ => ⟨S12288x128, .bf16⟩
  | .hbm, ⟨18, _⟩ => ⟨S12288x1, .f32⟩
  | .hbm, ⟨19, _⟩ => ⟨S12288, .i32⟩
  | .hbm, ⟨20, _⟩ => ⟨S1x393216, .i32⟩
  | .hbm, ⟨21, _⟩ => ⟨S393216, .i32⟩
  | .hbm, ⟨22, _⟩ => ⟨S405504, .i32⟩
  | .hbm, ⟨23, _⟩ => ⟨S1x393216, .i32⟩
  | .hbm, ⟨24, _⟩ => ⟨S393216, .i32⟩
  | .hbm, ⟨25, _⟩ => ⟨S405504, .i32⟩
  | .hbm, ⟨26, _⟩ => ⟨S_, .f32⟩
  | .hbm, ⟨27, _⟩ => ⟨S405504, .f32⟩
  | .hbm, ⟨28, _⟩ => ⟨S_, .f32⟩
  | .hbm, ⟨29, _⟩ => ⟨S12288, .f32⟩
  | .hbm, ⟨30, _⟩ => ⟨S405504x1, .i32⟩
  | .hbm, ⟨31, _⟩ => ⟨S12288, .f32⟩
  | .hbm, ⟨32, _⟩ => ⟨S_, .f32⟩
  | .hbm, ⟨33, _⟩ => ⟨S12288, .f32⟩
  | .hbm, ⟨34, _⟩ => ⟨S12288, .i1⟩
  | .hbm, ⟨35, _⟩ => ⟨S12288, .f32⟩
  | .hbm, ⟨36, _⟩ => ⟨S_, .f32⟩
  | .hbm, ⟨37, _⟩ => ⟨S_, .f32⟩
  | .hbm, ⟨38, _⟩ => ⟨S12288, .f32⟩
  | .hbm, ⟨39, _⟩ => ⟨S12288, .f32⟩
  | .hbm, ⟨40, _⟩ => ⟨S_, .i32⟩
  | .hbm, ⟨41, _⟩ => ⟨S405504, .i32⟩
  | .hbm, ⟨42, _⟩ => ⟨S405504, .i1⟩
  | .hbm, ⟨43, _⟩ => ⟨S_, .i32⟩
  | .hbm, ⟨44, _⟩ => ⟨S405504, .i32⟩
  | .hbm, ⟨45, _⟩ => ⟨S405504, .i32⟩
  | .hbm, ⟨46, _⟩ => ⟨S405504, .i32⟩
  | .hbm, ⟨47, _⟩ => ⟨S405504x1, .i32⟩
  | .hbm, ⟨48, _⟩ => ⟨S405504, .f32⟩
  | .hbm, ⟨49, _⟩ => ⟨S_, .i32⟩
  | .hbm, ⟨50, _⟩ => ⟨S405504, .i32⟩
  | .hbm, ⟨51, _⟩ => ⟨S405504, .i1⟩
  | .hbm, ⟨52, _⟩ => ⟨S_, .i32⟩
  | .hbm, ⟨53, _⟩ => ⟨S405504, .i32⟩
  | .hbm, ⟨54, _⟩ => ⟨S405504, .i32⟩
  | .hbm, ⟨55, _⟩ => ⟨S405504, .i32⟩
  | .hbm, ⟨56, _⟩ => ⟨S405504x1, .i32⟩
  | .hbm, ⟨57, _⟩ => ⟨S405504, .f32⟩
  | .hbm, ⟨58, _⟩ => ⟨S405504, .f32⟩
  | .hbm, ⟨59, _⟩ => ⟨S12288x128, .f32⟩
  | .hbm, ⟨60, _⟩ => ⟨S_, .i32⟩
  | .hbm, ⟨61, _⟩ => ⟨S405504, .i32⟩
  | .hbm, ⟨62, _⟩ => ⟨S405504, .i1⟩
  | .hbm, ⟨63, _⟩ => ⟨S_, .i32⟩
  | .hbm, ⟨64, _⟩ => ⟨S405504, .i32⟩
  | .hbm, ⟨65, _⟩ => ⟨S405504, .i32⟩
  | .hbm, ⟨66, _⟩ => ⟨S405504, .i32⟩
  | .hbm, ⟨67, _⟩ => ⟨S405504x1, .i32⟩
  | .hbm, ⟨68, _⟩ => ⟨S405504x128, .f32⟩
  | .hbm, ⟨69, _⟩ => ⟨S405504x1, .f32⟩
  | .hbm, ⟨70, _⟩ => ⟨S405504x128, .f32⟩
  | .hbm, ⟨71, _⟩ => ⟨S405504x128, .f32⟩
  | .hbm, ⟨72, _⟩ => ⟨S_, .f32⟩
  | .hbm, ⟨73, _⟩ => ⟨S12288x128, .f32⟩
  | .hbm, ⟨74, _⟩ => ⟨S405504x1, .i32⟩
  | .hbm, ⟨75, _⟩ => ⟨S12288x128, .f32⟩
  | .hbm, ⟨76, _⟩ => ⟨S1x128, .f32⟩
  | .hbm, ⟨77, _⟩ => ⟨S12288x128, .f32⟩
  | .hbm, ⟨78, _⟩ => ⟨S12288x128, .f32⟩
  | .hbm, ⟨79, _⟩ => ⟨S12288x128, .f32⟩
  | .hbm, ⟨80, _⟩ => ⟨S12288x128, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst : Ref sig .tc := ⟨.hbm, 11, rfl⟩
abbrev main_call1_v0 : Ref sig .tc := ⟨.hbm, 12, rfl⟩
abbrev main_call1_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call2_v0 : Ref sig .tc := ⟨.hbm, 37, rfl⟩
abbrev main_call2_v1 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 12], ![false, false]⟩

def k0_cond2 (i : grid0.Coords) : BitVec 1 :=
  let arg1 : BitVec 32 := BitVec.ofNat 32 (i 1).val
  let c11_i32 : BitVec 32 := 11#32
  let v16 : BitVec 1 := Scalar.cmpi .eq arg1 c11_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S12288x128_S12288_d1 : S12288x128.ReducesTo [1] S12288
  h_S_ : 0 < S_.numel
  bcast_S12288_S12288x1_0 : S12288.BroadcastsInDim S12288x1 (![0] : Fin 1 → Fin S12288x1.rank)
  bcast_S_S12288x1 : S_.BroadcastsInDim S12288x1 (![] : Fin 0 → Fin S12288x1.rank)
  bcast_S12288x1_S12288x128_0_1 : S12288x1.BroadcastsInDim S12288x128 (![0, 1] : Fin 2 → Fin S12288x128.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S2048x1024_S2048 : S2048x1024.Reduces [1] S2048
  shapeCasts_S2048_S2048x1 : S2048.ShapeCasts S2048x1
  slices_S2x393216_S1x393216_0_0 : S2x393216.Slices ![0, 0] S1x393216
  shapeCasts_S1x393216_S393216 : S1x393216.ShapeCasts S393216
  concatenates_S393216_S12288_S405504_d0 : Shape.Concatenates [S393216, S12288] S405504 0
  slices_S2x393216_S1x393216_1_0 : S2x393216.Slices ![1, 0] S1x393216
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x128_0_1 : S405504x1.BroadcastsInDim S405504x128 (![0, 1] : Fin 2 → Fin S405504x128.rank)
  bcast_S_S12288x128 : S_.BroadcastsInDim S12288x128 (![] : Fin 0 → Fin S12288x128.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  dot_S12288x128_S128x128_S12288x128_1_0_0_1_n_n_wf : DotDims.WF S12288x128 S128x128 S12288x128 [1] [0] [0] [1] [] []
  dot_S2048x128_S1024x128_S2048x1024_1_1_0_0_n_n_wf : DotDims.WF S2048x128 S1024x128 S2048x1024 [1] [1] [0] [0] [] []
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  gather_S12288x128_S405504x1_S405504x128_1_0_n_n_0_1_1128_wf : GatherDims.WF S12288x128 S405504x1 S405504x128 [1] [0] [] [0] [] 1 ![1, 128]
  scatter_S12288x128_S405504x1_S405504x128_1_0_0_1_wf : ScatterDims.WF S12288x128 S405504x1 S405504x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S12288x128.size a
  hwx0_0 : ∀ i : grid0.Coords, EltTy.bits .bf16 = 32 ∨ (Rect.block (s := S12288x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S12288x128.size a
  hwx0_1 : ∀ i : grid0.Coords, EltTy.bits .bf16 = 32 ∨ (Rect.block (s := S12288x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S12288x1.size a
  hwx0_2 : ∀ i : grid0.Coords, EltTy.bits .f32 = 32 ∨ (Rect.block (s := S12288x1) S2048x1.size (cc0_transform_2 i) (hinb0_2 i)).WholeWords (EltTy.packing .f32)

variable [Facts₀]

def dot_S12288x128_S128x128_S12288x128_1_0_0_1_n_n : DotDims S12288x128 S128x128 S12288x128 where
  lhsContracting := [1]
  rhsContracting := [0]
  lhsNonContracting := [0]
  rhsNonContracting := [1]
  lhsBatch := []
  rhsBatch := []
  wf := dot_S12288x128_S128x128_S12288x128_1_0_0_1_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def gather_S12288x128_S405504x1_S405504x128_1_0_n_n_0_1_1128 : GatherDims S12288x128 S405504x1 S405504x128 where
  offsetDims := [1]
  collapsedSliceDims := [0]
  operandBatchingDims := []
  startIndicesBatchingDims := []
  startIndexMap := [0]
  indexVectorDim := 1
  sliceSizes := ![1, 128]
  wf := gather_S12288x128_S405504x1_S405504x128_1_0_n_n_0_1_1128_wf
def scatter_S12288x128_S405504x1_S405504x128_1_0_0_1 : ScatterDims S12288x128 S405504x1 S405504x128 where
  updateWindowDims := [1]
  insertedWindowDims := [0]
  scatterDimsToOperandDims := [0]
  indexVectorDim := 1
  wf := scatter_S12288x128_S405504x1_S405504x128_1_0_0_1_wf

abbrev win0_0 : Pipeline.Window sig grid0 :=
  Pipeline.Window.ofSpec (Memref.whole main_v5) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S_ : Shape := ⟨0, ![]⟩
abbrev S12288 : Shape := ⟨1, ![12288]⟩
abbrev S12288x1 : Shape := ⟨2, ![12288, 1]⟩
abbrev S128x12288 : Shape := ⟨2, ![128, 12288]⟩
abbrev S12288x12288 : Shape := ⟨2, ![12288, 12288]⟩
abbrev S1x393216 : Shape := ⟨2, ![1, 393216]⟩
abbrev S393216 : Shape := ⟨1, ![393216]⟩
abbrev S405504 : Shape := ⟨1, ![405504]⟩
abbrev S405504x1 : Shape := ⟨2, ![405504, 1]⟩
abbrev S405504x128 : Shape := ⟨2, ![405504, 128]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S12288x128, .f32⟩
  | .hbm, ⟨6, _⟩ => ⟨S12288x128, .f32⟩
  | .hbm, ⟨7, _⟩ => ⟨S_, .f32⟩
  | .hbm, ⟨8, _⟩ => ⟨S12288, .f32⟩
  | .hbm, ⟨9, _⟩ => ⟨S12288x1, .f32⟩
  | .hbm, ⟨10, _⟩ => ⟨S12288x1, .f32⟩
  | .hbm, ⟨11, _⟩ => ⟨S_, .f32⟩
  | .hbm, ⟨12, _⟩ => ⟨S_, .f32⟩
  | .hbm, ⟨13, _⟩ => ⟨S12288x1, .f32⟩
  | .hbm, ⟨14, _⟩ => ⟨S12288x1, .f32⟩
  | .hbm, ⟨15, _⟩ => ⟨S12288x128, .f32⟩
  | .hbm, ⟨16, _⟩ => ⟨S12288x128, .f32⟩
  | .hbm, ⟨17, _⟩ => ⟨S128x12288, .f32⟩
  | .hbm, ⟨18, _⟩ => ⟨S12288x12288, .f32⟩
  | .hbm, ⟨19, _⟩ => ⟨S12288x12288, .f32⟩
  | .hbm, ⟨20, _⟩ => ⟨S12288x12288, .f32⟩
  | .hbm, ⟨21, _⟩ => ⟨S_, .f32⟩
  | .hbm, ⟨22, _⟩ => ⟨S12288x12288, .f32⟩
  | .hbm, ⟨23, _⟩ => ⟨S12288x12288, .f32⟩
  | .hbm, ⟨24, _⟩ => ⟨S_, .f32⟩
  | .hbm, ⟨25, _⟩ => ⟨S12288x12288, .f32⟩
  | .hbm, ⟨26, _⟩ => ⟨S12288x12288, .f32⟩
  | .hbm, ⟨27, _⟩ => ⟨S_, .f32⟩
  | .hbm, ⟨28, _⟩ => ⟨S12288, .f32⟩
  | .hbm, ⟨29, _⟩ => ⟨S_, .f32⟩
  | .hbm, ⟨30, _⟩ => ⟨S12288, .f32⟩
  | .hbm, ⟨31, _⟩ => ⟨S12288, .f32⟩
  | .hbm, ⟨32, _⟩ => ⟨S12288, .i32⟩
  | .hbm, ⟨33, _⟩ => ⟨S1x393216, .i32⟩
  | .hbm, ⟨34, _⟩ => ⟨S393216, .i32⟩
  | .hbm, ⟨35, _⟩ => ⟨S405504, .i32⟩
  | .hbm, ⟨36, _⟩ => ⟨S1x393216, .i32⟩
  | .hbm, ⟨37, _⟩ => ⟨S393216, .i32⟩
  | .hbm, ⟨38, _⟩ => ⟨S405504, .i32⟩
  | .hbm, ⟨39, _⟩ => ⟨S_, .f32⟩
  | .hbm, ⟨40, _⟩ => ⟨S405504, .f32⟩
  | .hbm, ⟨41, _⟩ => ⟨S_, .f32⟩
  | .hbm, ⟨42, _⟩ => ⟨S12288, .f32⟩
  | .hbm, ⟨43, _⟩ => ⟨S405504x1, .i32⟩
  | .hbm, ⟨44, _⟩ => ⟨S12288, .f32⟩
  | .hbm, ⟨45, _⟩ => ⟨S_, .f32⟩
  | .hbm, ⟨46, _⟩ => ⟨S12288, .f32⟩
  | .hbm, ⟨47, _⟩ => ⟨S12288, .i1⟩
  | .hbm, ⟨48, _⟩ => ⟨S12288, .f32⟩
  | .hbm, ⟨49, _⟩ => ⟨S_, .f32⟩
  | .hbm, ⟨50, _⟩ => ⟨S_, .f32⟩
  | .hbm, ⟨51, _⟩ => ⟨S12288, .f32⟩
  | .hbm, ⟨52, _⟩ => ⟨S12288, .f32⟩
  | .hbm, ⟨53, _⟩ => ⟨S_, .i32⟩
  | .hbm, ⟨54, _⟩ => ⟨S405504, .i32⟩
  | .hbm, ⟨55, _⟩ => ⟨S405504, .i1⟩
  | .hbm, ⟨56, _⟩ => ⟨S_, .i32⟩
  | .hbm, ⟨57, _⟩ => ⟨S405504, .i32⟩
  | .hbm, ⟨58, _⟩ => ⟨S405504, .i32⟩
  | .hbm, ⟨59, _⟩ => ⟨S405504, .i32⟩
  | .hbm, ⟨60, _⟩ => ⟨S405504x1, .i32⟩
  | .hbm, ⟨61, _⟩ => ⟨S405504, .f32⟩
  | .hbm, ⟨62, _⟩ => ⟨S_, .i32⟩
  | .hbm, ⟨63, _⟩ => ⟨S405504, .i32⟩
  | .hbm, ⟨64, _⟩ => ⟨S405504, .i1⟩
  | .hbm, ⟨65, _⟩ => ⟨S_, .i32⟩
  | .hbm, ⟨66, _⟩ => ⟨S405504, .i32⟩
  | .hbm, ⟨67, _⟩ => ⟨S405504, .i32⟩
  | .hbm, ⟨68, _⟩ => ⟨S405504, .i32⟩
  | .hbm, ⟨69, _⟩ => ⟨S405504x1, .i32⟩
  | .hbm, ⟨70, _⟩ => ⟨S405504, .f32⟩
  | .hbm, ⟨71, _⟩ => ⟨S405504, .f32⟩
  | .hbm, ⟨72, _⟩ => ⟨S12288x128, .f32⟩
  | .hbm, ⟨73, _⟩ => ⟨S_, .i32⟩
  | .hbm, ⟨74, _⟩ => ⟨S405504, .i32⟩
  | .hbm, ⟨75, _⟩ => ⟨S405504, .i1⟩
  | .hbm, ⟨76, _⟩ => ⟨S_, .i32⟩
  | .hbm, ⟨77, _⟩ => ⟨S405504, .i32⟩
  | .hbm, ⟨78, _⟩ => ⟨S405504, .i32⟩
  | .hbm, ⟨79, _⟩ => ⟨S405504, .i32⟩
  | .hbm, ⟨80, _⟩ => ⟨S405504x1, .i32⟩
  | .hbm, ⟨81, _⟩ => ⟨S405504x128, .f32⟩
  | .hbm, ⟨82, _⟩ => ⟨S405504x1, .f32⟩
  | .hbm, ⟨83, _⟩ => ⟨S405504x128, .f32⟩
  | .hbm, ⟨84, _⟩ => ⟨S405504x128, .f32⟩
  | .hbm, ⟨85, _⟩ => ⟨S_, .f32⟩
  | .hbm, ⟨86, _⟩ => ⟨S12288x128, .f32⟩
  | .hbm, ⟨87, _⟩ => ⟨S405504x1, .i32⟩
  | .hbm, ⟨88, _⟩ => ⟨S12288x128, .f32⟩
  | .hbm, ⟨89, _⟩ => ⟨S1x128, .f32⟩
  | .hbm, ⟨90, _⟩ => ⟨S12288x128, .f32⟩
  | .hbm, ⟨91, _⟩ => ⟨S12288x128, .f32⟩
  | .hbm, ⟨92, _⟩ => ⟨S12288x1, .f32⟩
  | .hbm, ⟨93, _⟩ => ⟨S12288x128, .f32⟩
  | .hbm, ⟨94, _⟩ => ⟨S12288x128, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst : Ref sig .tc := ⟨.hbm, 11, rfl⟩
abbrev main_call1_v0 : Ref sig .tc := ⟨.hbm, 12, rfl⟩
abbrev main_call1_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_c : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]

class Facts₀ : Prop where
  reducesTo_S12288x128_S12288_d1 : S12288x128.ReducesTo [1] S12288
  h_S_ : 0 < S_.numel
  bcast_S12288_S12288x1_0 : S12288.BroadcastsInDim S12288x1 (![0] : Fin 1 → Fin S12288x1.rank)
  bcast_S_S12288x1 : S_.BroadcastsInDim S12288x1 (![] : Fin 0 → Fin S12288x1.rank)
  bcast_S12288x1_S12288x128_0_1 : S12288x1.BroadcastsInDim S12288x128 (![0, 1] : Fin 2 → Fin S12288x128.rank)
  transposes_S12288x128_S128x12288_1_0 : S12288x128.Transposes [1, 0] S128x12288
  bcast_S_S12288x12288 : S_.BroadcastsInDim S12288x12288 (![] : Fin 0 → Fin S12288x12288.rank)
  reducesTo_S12288x12288_S12288_d1 : S12288x12288.ReducesTo [1] S12288
  bcast_S_S12288 : S_.BroadcastsInDim S12288 (![] : Fin 0 → Fin S12288.rank)
  slices_S2x393216_S1x393216_0_0 : S2x393216.Slices ![0, 0] S1x393216
  shapeCasts_S1x393216_S393216 : S1x393216.ShapeCasts S393216
  concatenates_S393216_S12288_S405504_d0 : Shape.Concatenates [S393216, S12288] S405504 0
  slices_S2x393216_S1x393216_1_0 : S2x393216.Slices ![1, 0] S1x393216
  bcast_S_S405504 : S_.BroadcastsInDim S405504 (![] : Fin 0 → Fin S405504.rank)
  bcast_S405504_S405504x1_0 : S405504.BroadcastsInDim S405504x1 (![0] : Fin 1 → Fin S405504x1.rank)
  bcast_S405504x1_S405504x128_0_1 : S405504x1.BroadcastsInDim S405504x128 (![0, 1] : Fin 2 → Fin S405504x128.rank)
  bcast_S_S12288x128 : S_.BroadcastsInDim S12288x128 (![] : Fin 0 → Fin S12288x128.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  dot_S12288x128_S128x128_S12288x128_1_0_0_1_n_n_wf : DotDims.WF S12288x128 S128x128 S12288x128 [1] [0] [0] [1] [] []
  dot_S12288x128_S128x12288_S12288x12288_1_0_0_1_n_n_wf : DotDims.WF S12288x128 S128x12288 S12288x12288 [1] [0] [0] [1] [] []
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  gather_S12288x128_S405504x1_S405504x128_1_0_n_n_0_1_1128_wf : GatherDims.WF S12288x128 S405504x1 S405504x128 [1] [0] [] [0] [] 1 ![1, 128]
  scatter_S12288x128_S405504x1_S405504x128_1_0_0_1_wf : ScatterDims.WF S12288x128 S405504x1 S405504x128 [1] [0] [0] 1

variable [Facts₀]

def dot_S12288x128_S128x128_S12288x128_1_0_0_1_n_n : DotDims S12288x128 S128x128 S12288x128 where
  lhsContracting := [1]
  rhsContracting := [0]
  lhsNonContracting := [0]
  rhsNonContracting := [1]
  lhsBatch := []
  rhsBatch := []
  wf := dot_S12288x128_S128x128_S12288x128_1_0_0_1_n_n_wf
def dot_S12288x128_S128x12288_S12288x12288_1_0_0_1_n_n : DotDims S12288x128 S128x12288 S12288x12288 where
  lhsContracting := [1]
  rhsContracting := [0]
  lhsNonContracting := [0]
  rhsNonContracting := [1]
  lhsBatch := []
  rhsBatch := []
  wf := dot_S12288x128_S128x12288_S12288x12288_1_0_0_1_n_n_wf
def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def gather_S12288x128_S405504x1_S405504x128_1_0_n_n_0_1_1128 : GatherDims S12288x128 S405504x1 S405504x128 where
  offsetDims := [1]
  collapsedSliceDims := [0]
  operandBatchingDims := []
  startIndicesBatchingDims := []
  startIndexMap := [0]
  indexVectorDim := 1
  sliceSizes := ![1, 128]
  wf := gather_S12288x128_S405504x1_S405504x128_1_0_n_n_0_1_1128_wf
def scatter_S12288x128_S405504x1_S405504x128_1_0_0_1 : ScatterDims S12288x128 S405504x1 S405504x128 where
  updateWindowDims := [1]
  insertedWindowDims := [0]
  scatterDimsToOperandDims := [0]
  indexVectorDim := 1
  wf := scatter_S12288x128_S405504x1_S405504x128_1_0_0_1_wf

class Facts : Prop extends Facts₀ where

variable [Facts]
-- ==== Proof.AttnData.lean ====
/-
  The attention gate kernel on its 6 × 12 grid, as data for the pipeline library.

  Point t = 12·q + k handles query rows 2048·q … 2048·q + 2047 (window 0, fetched when k = 0) against key rows
  1024·k … 1024·k + 1023 (window 1, fetched at every point); both windows read the SAME array, the normalised rows.
  A column of 2048 running sums is carried between points in a scratch buffer: reset to zero when k = 0, then at every
  point increased by the row sums of the logistic of the 2048 × 1024 score tile. At k = 11 the running sums times the
  named constant are stored into the result window, which is written back there and is idle at every other point.
  What the scratch holds after point n is `accAt` (a recursion on the point over the body's own arithmetic), what the
  result window holds after a point with k = 11 is `outAt`.
-/
import proofs.«117570_j670014898399_1_alg».proof.Proof.Gen.KernelIdeal.Launch
import proofs.«117570_j670014898399_1_alg».proof.Proof.Gen.KernelIdeal.Skeleton
import proofs.«117570_j670014898399_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region: h = x·W, its row norms, the clip, the quotient, the change of format. -/
abbrev linesBefore : List (List (HloOp τ sig (Elt F))) := [hostOps0, hostOps0_1, hostOps0_2, hostOps0_3, hostOps0_4]
/-- The host lines after it: the graph convolution and the final product with the gate. -/
abbrev linesAfter : List (List (HloOp τ sig (Elt F))) := [hostOps1, hostOps1_1, hostOps1_2]

/-- Core `c`'s buffer contents when the region is entered: the lines before it have run. -/
abbrev V0 (c : Dev nD) : Valuation τ sig (Elt F) := StableHlo.after (List.flatten (linesBefore (F := F))) (fun b => m (c, b))
/-- The same read at a TensorCore reference. -/
abbrev V (c : Dev nD) (b : Ref sig .tc) : Buf (Elt F) ((c : Thread nD τ).loc b) := V0 m c (Proc.devRef .tc b)

/-! ## The windows' blocks, the memrefs, the conditions -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it, and its wholeness. -/
abbrev ms0 (t : Fin cfg0.N) : Memref sig .tc .vmem S2048x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The scratch column of running sums. -/
abbrev accM : Memref sig .tc .vmem S2048x1 .f32 := Memref.whole cc0_scratch0

/-- "This is the first key tile of a query tile" (k = 0), as the body computes it. -/
abbrev isFirst (i : grid0.Coords) : Prop := (Scalar.cmpi .ne (Scalar.extui (Scalar.cmpi .eq (BitVec.ofNat 32 (i 1).val) 0#32)) 0#32) = 1#1
/-- "This is the last key tile" (k = 11), as the body computes it. -/
abbrev isLast (i : grid0.Coords) : Prop := k0_cond2 i = 1#1

theorem isFirst_iff : ∀ t : Fin cfg0.N, isFirst (grid0.coords t) ↔ t.val % 12 = 0 :=
  (by decide +kernel : ∀ t : Fin grid0.N, isFirst (grid0.coords t) ↔ t.val % 12 = 0)
theorem isLast_iff : ∀ t : Fin cfg0.N, isLast (grid0.coords t) ↔ t.val % 12 = 11 :=
  (by decide +kernel : ∀ t : Fin grid0.N, isLast (grid0.coords t) ↔ t.val % 12 = 11)

/-- The inputs are never idle; the result window is idle exactly away from the last key tile, and not written back there. -/
theorem live0 : ∀ t : Fin cfg0.N, cfg0.idle 0 (grid0.coords t) = false := by decide +kernel
theorem live1 : ∀ t : Fin cfg0.N, cfg0.idle 1 (grid0.coords t) = false := by decide +kernel
theorem idle2_of_not_last : ∀ t : Fin cfg0.N, ¬ isLast (grid0.coords t) → cfg0.idle 2 (grid0.coords t) = true := by decide +kernel
theorem noFlush2_of_not_last : ∀ t : Fin cfg0.N, ¬ isLast (grid0.coords t) → (cfg0.win 2).flush t = false := by decide +kernel
theorem live2_of_last : ∀ t : Fin cfg0.N, isLast (grid0.coords t) → cfg0.idle 2 (grid0.coords t) = false := by decide +kernel

/-! ## The accumulation -/

/-- What the scratch column holds after the body at point `n`: the point's tile sums added to zero at the first key
    tile of a query tile, to what the point before left otherwise. -/
def accAt (c : Dev nD) : (n : ℕ) → n < cfg0.N → Vec F S2048x1 .f32
  | 0, hn => k0_pay2 (iblk m c 0 ⟨0, hn⟩) (iblk m c 1 ⟨0, hn⟩) (k0_pay1 (F := F))
  | n + 1, hn =>
    k0_pay2 (iblk m c 0 ⟨n + 1, hn⟩) (iblk m c 1 ⟨n + 1, hn⟩)
      (if (n + 1) % 12 = 0 then k0_pay1 (F := F) else accAt c n (Nat.lt_of_succ_lt hn))

/-- What the result window's staging buffer holds after a point that stores into it: the running sums times the named constant. -/
def outAt (c : Dev nD) (t : Fin cfg0.N) : Vec F S2048x1 .f32 := k0_pay3 (accAt m c t.val t.isLt)

theorem accAt_first (c : Dev nD) (t : Fin cfg0.N) (h : t.val % 12 = 0) :
    accAt m c t.val t.isLt = k0_pay2 (iblk m c 0 t) (iblk m c 1 t) (k0_pay1 (F := F)) := by
  obtain ⟨n, hn⟩ := t
  cases n with
  | zero => rfl
  | succ n => exact (by show k0_pay2 _ _ (if (n + 1) % 12 = 0 then _ else _) = _; rw [if_pos h])

theorem accAt_next (c : Dev nD) (t : Fin cfg0.N) (h : ¬ t.val % 12 = 0) :
    accAt m c t.val t.isLt = k0_pay2 (iblk m c 0 t) (iblk m c 1 t) (accAt m c (t.val - 1) (Nat.lt_of_le_of_lt (Nat.sub_le _ _) t.isLt)) := by
  obtain ⟨n, hn⟩ := t
  cases n with
  | zero => exact absurd (Nat.zero_mod _) h
  | succ n => exact (by show k0_pay2 _ _ (if (n + 1) % 12 = 0 then _ else _) = _; rw [if_neg h]; rfl)

/-! ## The invariant and the proof data -/

/-- What the launch hands the invariant and takes back: the scratch column, whole, at some contents. -/
abbrev Rest (c : Dev nD) : sProp 𝕄 :=
  Pipeline.scopedRest (Ix := Unit) (Name := ℕ) (U := UR sig nD τ) (Lvl := ℕ) (Val := Elt F) spec0 c

/-- The region invariant before position `n`: before the first point the scratch at anything; afterwards at what the
    point before left in it. -/
def PhiS (c : Dev nD) : (n : ℕ) → n ≤ cfg0.N → sProp 𝕄
  | 0, _ => Rest c
  | n + 1, hn => owns (c : Thread nD τ) accM fullShare (accAt m c n hn)

theorem PhiS_zero (c : Dev nD) (n : ℕ) (h : n ≤ cfg0.N) (hz : n = 0) : PhiS m c n h = Rest c := by
  subst hz; rfl

theorem PhiS_succ (c : Dev nD) (n : ℕ) (hn : n < cfg0.N) :
    PhiS m c (n + 1) hn = owns (c : Thread nD τ) accM fullShare (accAt m c n hn) := rfl

theorem PhiS_pos (c : Dev nD) (n : ℕ) (h : n ≤ cfg0.N) (hz : n ≠ 0) :
    PhiS m c n h = owns (c : Thread nD τ) accM fullShare (accAt m c (n - 1) (by omega)) := by
  cases n with
  | zero => exact absurd rfl hz
  | succ n => rfl

/-- The invariant before the first point is the scratch at something. -/
theorem Rest_eq (c : Dev nD) :
    (Rest c : sProp 𝕄) = iprop(∃ d, owns (c : Thread nD τ) accM fullShare d) := by
  unfold Rest; rw [scopedRest0_eq]; simp only [accM, owns_whole]; try rfl

/-- The proof data on core `c`. The two input windows hold HALF the normalised rows' array each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

end Cert.KernelIdeal.Attn

end
-- ==== Proof.AttnRunFirst.lean ====
/-
  The attention gate kernel's body at the FIRST key tile of a query tile, on any whole memrefs: the scratch column,
  whatever it held, is reset to zero and then left at zero plus the row sums of the logistic of the score tile of the
  query block `x0` against the key block `x1`; the two blocks are read and left as they were, the result window is
  not touched.
-/
import proofs.«117570_j670014898399_1_alg».proof.Proof.AttnData
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

private theorem zeroOffsets : (![0, 0] : Fin 2 → Nat) = fun _ => 0 := funext fun a => by fin_cases a <;> rfl

set_option maxHeartbeats 1000000 in
/-- The body at a first key tile. Both stores into the scratch go through the whole-shape rectangle at zero offsets:
    the load between them reads the zeros the first one stored, and the column reads back as what the second one
    stored, whatever the scratch held on entry (`xs`). -/
theorem run_first (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (arg5 : Memref sig .tc .vmem S2048x1 .f32) (harg5 : arg5.IsWhole)
    (hF : isFirst i) (hL : ¬ isLast i)
    (x0 : Vec F S2048x128 .bf16) (x1 : Vec F S1024x128 .bf16) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg5 fullShare xs
      ∗ (iprop(owns (c : Thread nD τ) arg2 fullShare x0 ∗ owns (c : Thread nD τ) arg3 fullShare x1
          ∗ owns (c : Thread nD τ) arg5 fullShare (k0_pay2 x0 x1 (k0_pay1 (F := F)))) -∗ K ⟨⟩))
    ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  · ipureintro
    sl_unfold_words
    rw [View.read_writes_eq_canon _ _ _ (fun y => ⟨_, List.Mem.head _, View.mem_set_unit_zero zeroOffsets inb_S2048x1_S2048x1_0_0 y⟩),
      View.canon_cons_unit_zero (S := S2048x1) zeroOffsets, View.readCov_unit_zero (S := S2048x1) _ zeroOffsets]
    simp only [View.readAt_eq_ld, harg2.read_unread, harg3.read_unread,
      View.ld_unit_zero (S := S2048x128) zeroOffsets, View.ld_unit_zero (S := S1024x128) zeroOffsets]

end Cert.KernelIdeal.Attn

end
-- ==== Proof.AttnRunMid.lean ====
/-
  The attention gate kernel's body at a MIDDLE key tile (neither the first nor the last of its query tile), on any
  whole memrefs: the scratch column, holding `xs`, is left at `xs` plus the row sums of the logistic of the score
  tile of the query block `x0` against the key block `x1`; the two blocks are read and left as they were, the result
  window is not touched.
-/
import proofs.«117570_j670014898399_1_alg».proof.Proof.AttnData
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

private theorem zeroOffsets : (![0, 0] : Fin 2 → Nat) = fun _ => 0 := funext fun a => by fin_cases a <;> rfl

set_option maxHeartbeats 1000000 in
/-- The body at a middle key tile. The one store into the scratch goes through the whole-shape rectangle at zero
    offsets, so the column reads back as the stored sums; each load through such a rectangle reads the buffer's
    contents. -/
theorem run_mid (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (arg5 : Memref sig .tc .vmem S2048x1 .f32) (harg5 : arg5.IsWhole)
    (hF : ¬ isFirst i) (hL : ¬ isLast i)
    (x0 : Vec F S2048x128 .bf16) (x1 : Vec F S1024x128 .bf16) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg5 fullShare xs
      ∗ (iprop(owns (c : Thread nD τ) arg2 fullShare x0 ∗ owns (c : Thread nD τ) arg3 fullShare x1
          ∗ owns (c : Thread nD τ) arg5 fullShare (k0_pay2 x0 x1 xs)) -∗ K ⟨⟩))
    ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  · ipureintro
    rw [View.read_writes_eq_canon _ _ _ (fun y => ⟨_, List.mem_singleton_self _, View.mem_set_unit_zero zeroOffsets inb_S2048x1_S2048x1_0_0 y⟩),
      View.canon_unit_zero zeroOffsets]
    simp only [View.readAt_eq_ld, harg2.read_unread, harg3.read_unread, harg5.read_unread,
      View.ld_unit_zero (S := S2048x128) zeroOffsets, View.ld_unit_zero (S := S1024x128) zeroOffsets,
      View.ld_unit_zero (S := S2048x1) zeroOffsets]

end Cert.KernelIdeal.Attn

end
-- ==== Proof.AttnRunLast.lean ====
/-
  The attention gate kernel's body at the LAST key tile of a query tile (which is not also the first), on any whole
  memrefs: the scratch column, holding `xs`, is left at `xs` plus the row sums of the logistic of the score tile of
  the query block `x0` against the key block `x1`, and the result window, whatever it held, at that column times the
  named constant; the two blocks are read and left as they were.
-/
import proofs.«117570_j670014898399_1_alg».proof.Proof.AttnData
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

private theorem zeroOffsets : (![0, 0] : Fin 2 → Nat) = fun _ => 0 := funext fun a => by fin_cases a <;> rfl

set_option maxHeartbeats 1000000 in
/-- The body at a last key tile. Every store goes through the whole-shape rectangle at zero offsets: the scratch
    reads back as the sums stored into it, the load of it under the second condition reads those sums, and the
    result window reads back as their scaling, whatever it held on entry (`xo`). -/
theorem run_last (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (arg5 : Memref sig .tc .vmem S2048x1 .f32) (harg5 : arg5.IsWhole)
    (hF : ¬ isFirst i) (hL : isLast i)
    (x0 : Vec F S2048x128 .bf16) (x1 : Vec F S1024x128 .bf16) (xo xs : Vec F S2048x1 .f32)
    (E : Set ℕ) (K : PUnit → sProp 𝕄) :
    iprop(owns (c : Thread nD τ) arg2 fullShare x0 ∗ owns (c : Thread nD τ) arg3 fullShare x1
      ∗ owns (c : Thread nD τ) arg4 fullShare xo ∗ owns (c : Thread nD τ) arg5 fullShare xs
      ∗ (iprop(owns (c : Thread nD τ) arg2 fullShare x0 ∗ owns (c : Thread nD τ) arg3 fullShare x1
          ∗ owns (c : Thread nD τ) arg4 fullShare (k0_pay3 (k0_pay2 x0 x1 xs))
          ∗ owns (c : Thread nD τ) arg5 fullShare (k0_pay2 x0 x1 xs)) -∗ K ⟨⟩))
    ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1
  obtain rfl := harg4.eq_unread hfo; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    · ipureintro
      sl_unfold_words
      rw [View.read_writes_eq_canon _ _ _ (fun y => ⟨_, List.mem_singleton_self _, View.mem_set_unit_zero zeroOffsets inb_S2048x1_S2048x1_0_0 y⟩),
        View.canon_unit_zero zeroOffsets, View.readCov_unit_zero (S := S2048x1) _ zeroOffsets]
      simp only [View.readAt_eq_ld, harg2.read_unread, harg3.read_unread, harg5.read_unread,
        View.ld_unit_zero (S := S2048x128) zeroOffsets, View.ld_unit_zero (S := S1024x128) zeroOffsets,
        View.ld_unit_zero (S := S2048x1) zeroOffsets]
  iexists _; isplitr
  swap; · iexact HS
  · ipureintro
    sl_unfold_words
    rw [View.read_writes_eq_canon _ _ _ (fun y => ⟨_, List.mem_singleton_self _, View.mem_set_unit_zero zeroOffsets inb_S2048x1_S2048x1_0_0 y⟩),
      View.canon_unit_zero zeroOffsets]
    simp only [View.readAt_eq_ld, harg2.read_unread, harg3.read_unread, harg5.read_unread,
      View.ld_unit_zero (S := S2048x128) zeroOffsets, View.ld_unit_zero (S := S1024x128) zeroOffsets,
      View.ld_unit_zero (S := S2048x1) zeroOffsets]

end Cert.KernelIdeal.Attn

end
-- ==== Proof.AttnBody.lean ====
/-
  The body obligation of the attention gate kernel on its 6 × 12 grid.

  At point t = 12·q + k the pipeline hands the body the query block (window 0), the key block (window 1), the result
  window's staging buffer and the invariant: the scratch column at what the point before left in it (at anything
  before the first point). The body is in one of three cases, by k: FIRST (k = 0: the column is reset, then the tile's
  sums are added), MIDDLE (the tile's sums are added to the column), LAST (k = 11: the same, then the column times
  the named constant is stored into the result window). Each case is the body's run on whole memrefs (the three run
  modules); the recursion `accAt` names the column each case leaves, `outAt` the result window after a last tile; away
  from a last tile the result window is idle and not written back, and its buffer is handed back untouched.
-/
import proofs.«117570_j670014898399_1_alg».proof.Proof.AttnData
import proofs.«117570_j670014898399_1_alg».proof.Proof.AttnRunFirst
import proofs.«117570_j670014898399_1_alg».proof.Proof.AttnRunMid
import proofs.«117570_j670014898399_1_alg».proof.Proof.AttnRunLast

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns: the invariant at the next point, the same debt, each buffer at what the body leaves in it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's residue mod 12 says which case it is in
    (0 and 11 at once is impossible); the invariant hands over the scratch column — at anything at the very first
    point, else at what the point before left — and takes it back at this point's sums, which the recursion unfolds
    to by the case; the result window is stored into at a last tile only and is handed back as found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  have hN : t.val < 72 := lt_of_lt_of_eq t.isLt (show cfg0.N = 72 from N_0)
  by_cases h0 : t.val % 12 = 0
  · by_cases h1 : t.val % 12 = 11
    · exfalso; omega
    · -- a first key tile
      have hF : isFirst (grid0.coords t) := (isFirst_iff t).mpr h0
      have hL : ¬ isLast (grid0.coords t) := fun h => h1 ((isLast_iff t).mp h)
      rw [Dat.leavesExact_idle (dats m 0 c) 2 t (idle2_of_not_last t hL) (noFlush2_of_not_last t hL)]
      rw [accAt_first m c t h0]
      by_cases hz : t.val = 0
      · rw [PhiS_castSucc m c t, PhiS_zero m c _ _ hz, Rest_eq]
        iintro ⟨⟨%ds, HS⟩, Ho, ⟨%d0, H0⟩, ⟨%d1, H1⟩, H2⟩
        iapply (run_first c (grid0.coords t) (ms0 t) (hs0 t) (ms1 t) (hs1 t) (ms2 t) (hs2 t) accM (Memref.isWhole_whole _)
          hF hL (iblk m c 0 t) (iblk m c 1 t) ds Set.univ _)
        isplitl [H0]; · iexact H0
        isplitl [H1]; · iexact H1
        isplitl [HS]; · iexact HS
        iintro ⟨H0, H1, HS⟩
        isplitl [HS]; · iexact HS
        isplitl [Ho]; · iexact Ho
        isplitl [H0]; · iexact H0
        isplitl [H1]; · iexact H1
        iexact H2
      · rw [PhiS_castSucc m c t, PhiS_pos m c _ _ hz]
        iintro ⟨HS, Ho, ⟨%d0, H0⟩, ⟨%d1, H1⟩, H2⟩
        iapply (run_first c (grid0.coords t) (ms0 t) (hs0 t) (ms1 t) (hs1 t) (ms2 t) (hs2 t) accM (Memref.isWhole_whole _)
          hF hL (iblk m c 0 t) (iblk m c 1 t)
          (accAt m c (t.val - 1) (Nat.lt_of_le_of_lt (Nat.sub_le _ _) t.isLt)) Set.univ _)
        isplitl [H0]; · iexact H0
        isplitl [H1]; · iexact H1
        isplitl [HS]; · iexact HS
        iintro ⟨H0, H1, HS⟩
        isplitl [HS]; · iexact HS
        isplitl [Ho]; · iexact Ho
        isplitl [H0]; · iexact H0
        isplitl [H1]; · iexact H1
        iexact H2
  · have hF : ¬ isFirst (grid0.coords t) := fun h => h0 ((isFirst_iff t).mp h)
    have hz : t.val ≠ 0 := fun hz => h0 (by rw [hz])
    by_cases h1 : t.val % 12 = 11
    · -- a last key tile
      have hL : isLast (grid0.coords t) := (isLast_iff t).mpr h1
      rw [show (dats m 0 c).leavesExact 2 t = owns (c : Thread nD τ) (ms2 t) fullShare ((dats m 0 c).after 2 t) from by
        unfold Dat.leavesExact; rw [live2_of_last t hL], after_2]
      unfold outAt
      rw [accAt_next m c t h0]
      rw [PhiS_castSucc m c t, PhiS_pos m c _ _ hz]
      iintro ⟨HS, Ho, ⟨%d0, H0⟩, ⟨%d1, H1⟩, ⟨%d2, H2⟩⟩
      iapply (run_last c (grid0.coords t) (ms0 t) (hs0 t) (ms1 t) (hs1 t) (ms2 t) (hs2 t) accM (Memref.isWhole_whole _)
        hF hL (iblk m c 0 t) (iblk m c 1 t) ((dats m 0 c).before 2 t d2)
        (accAt m c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · -- a middle key tile
      have hL : ¬ isLast (grid0.coords t) := fun h => h1 ((isLast_iff t).mp h)
      rw [Dat.leavesExact_idle (dats m 0 c) 2 t (idle2_of_not_last t hL) (noFlush2_of_not_last t hL)]
      rw [accAt_next m c t h0]
      rw [PhiS_castSucc m c t, PhiS_pos m c _ _ hz]
      iintro ⟨HS, Ho, ⟨%d0, H0⟩, ⟨%d1, H1⟩, H2⟩
      iapply (run_mid c (grid0.coords t) (ms0 t) (hs0 t) (ms1 t) (hs1 t) (ms2 t) (hs2 t) accM (Memref.isWhole_whole _)
        hF hL (iblk m c 0 t) (iblk m c 1 t)
        (accAt m c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS]; · iexact HS
      isplitl [Ho]; · iexact Ho
      isplitl [H0]; · iexact H0
      isplitl [H1]; · iexact H1
      iexact H2

/-- The library's body obligation, at every point. -/
theorem body_obligation (c : Dev nD) : BodyObligation (dats m 0 c) (defs₀ (F := F)) Variants.none () Set.univ := fun t => by
  rw [bigSep_W0, bigSep_W0]
  exact sound_body m c t

end Cert.KernelIdeal.Attn

end
-- ==== Proof.AttnKeeps.lean ====
/-
  What the host lines leave alone. The lines before the region write neither an argument of the program; the lines
  after it write neither an argument, nor the normalised rows, nor the gate column the kernel produced: each line
  writes its own result buffer only.
-/
import proofs.«117570_j670014898399_1_alg».proof.Proof.AttnData
import Idealize.ShloMosaic.Lib.StableHlo.Run
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.StableHlo in
/-- The lines after the region leave the arguments, the normalised rows and the gate column as they find them. -/
theorem after_keeps (W : Valuation τ sig (Elt F)) :
    StableHlo.after (List.flatten (linesAfter (F := F))) W (Proc.devRef .tc main_arg0) = W (Proc.devRef .tc main_arg0)
    ∧ StableHlo.after (List.flatten (linesAfter (F := F))) W (Proc.devRef .tc main_arg1) = W (Proc.devRef .tc main_arg1)
    ∧ StableHlo.after (List.flatten (linesAfter (F := F))) W (Proc.devRef .tc main_arg2) = W (Proc.devRef .tc main_arg2)
    ∧ StableHlo.after (List.flatten (linesAfter (F := F))) W (Proc.devRef .tc main_arg3) = W (Proc.devRef .tc main_arg3)
    ∧ StableHlo.after (List.flatten (linesAfter (F := F))) W (Proc.devRef .tc main_arg4) = W (Proc.devRef .tc main_arg4)
    ∧ StableHlo.after (List.flatten (linesAfter (F := F))) W (Proc.devRef .tc main_v5) = W (Proc.devRef .tc main_v5)
    ∧ StableHlo.after (List.flatten (linesAfter (F := F))) W (Proc.devRef .tc main_v6) = W (Proc.devRef .tc main_v6) := by
  simp only [linesAfter, hostOps1, hostOps1_1, hostOps1_2, List.flatten_cons, List.flatten_nil, List.append_nil, List.cons_append, List.nil_append]
  refine ⟨?_, ?_, ?_, ?_, ?_, ?_, ?_⟩ <;> (after_results_simp <;> rfl)

open Idealize.ShloMosaic.StableHlo in
/-- The lines before the region leave the arguments as launched. -/
theorem before_keeps (W : Valuation τ sig (Elt F)) :
    StableHlo.after (List.flatten (linesBefore (F := F))) W (Proc.devRef .tc main_arg0) = W (Proc.devRef .tc main_arg0)
    ∧ StableHlo.after (List.flatten (linesBefore (F := F))) W (Proc.devRef .tc main_arg1) = W (Proc.devRef .tc main_arg1)
    ∧ StableHlo.after (List.flatten (linesBefore (F := F))) W (Proc.devRef .tc main_arg2) = W (Proc.devRef .tc main_arg2)
    ∧ StableHlo.after (List.flatten (linesBefore (F := F))) W (Proc.devRef .tc main_arg3) = W (Proc.devRef .tc main_arg3)
    ∧ StableHlo.after (List.flatten (linesBefore (F := F))) W (Proc.devRef .tc main_arg4) = W (Proc.devRef .tc main_arg4) := by
  simp only [linesBefore, hostOps0, hostOps0_1, hostOps0_2, hostOps0_3, hostOps0_4, List.flatten_cons, List.flatten_nil, List.append_nil, List.cons_append, List.nil_append]
  refine ⟨?_, ?_, ?_, ?_, ?_⟩ <;> (after_results_simp <;> rfl)

end Cert.KernelIdeal.Attn

end
-- ==== Proof.LibSharedTail.lean ====
/-
  The frame run of a pipelined kernel whose input windows may share an array, in a program that goes on after the
  region with more host lines.

  One array handed to a kernel through several input windows is held by the pipeline once, each window holding a
  share of it. The launch asks, in place of "every window's array is a buffer of its own", how the distinct buffers
  behind the arrays, each whole at the full share at the region's entry contents, make every window's array at that
  window's share (`hsplit`). When the program goes on after the region, the same question is asked twice more at
  the region's exit: the windows' arrays at their final contents make the distinct buffers again, whole, at some
  valuation `VN` that agrees with the entry contents away from the arrays (`hmerge`, `hrest`), so that the later
  lines run within all the unscoped buffers as the earlier ones did; and what those lines leave behind the arrays
  can be split among the windows once more (`hsplitN`: the later lines write no array). Given these, the body
  obligation, and an invariant entered from the scoped buffers that are no staging buffer and returning them,
  every weakly fair execution terminates without a fault, and every unscoped buffer that is no window's array ends
  at what the later lines compute from the exit valuation.
-/
import Idealize.ShloMosaic.Lib.Pipeline.FrameSuffix

noncomputable section

namespace Cert.SharedTail

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share arrays, the program continuing after the region with the host lines
    `opss`: every buffer that bypasses the region ends at the later lines' result from the exit valuation `VN`. -/
theorem θ_run_frame_shared_around (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ VN : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (hmerge : ∀ c, (dats p c).arrays ((dats p c).arrAt · (cfgs p).N) ⊢ (arrBufs (cfgs p).spec c (fun b => VN c (Proc.devRef .tc b)) : sProp 𝕄))
    (hrest : ∀ c, ∀ b ∈ restRefs sig (cfgs p).spec, VN c (Proc.devRef .tc b) = V₀ c (Proc.devRef .tc b))
    (hsplitN : ∀ c, (arrBufs (cfgs p).spec c (fun b => StableHlo.after opss.flatten (VN c) (Proc.devRef .tc b)) : sProp 𝕄)
      ⊢ (dats p c).arrays ((dats p c).arrAt · (cfgs p).N))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g)
      (fun r => ∀ c : Dev nD, ∀ b ∈ restRefs sig (cfgs p).spec,
        r.2.mem ((c.tc : Thread nD τ).loc b) = StableHlo.after opss.flatten (VN c) (Proc.devRef .tc b)) := by
  classical
  -- all the unscoped buffers at a valuation: the buffers behind the arrays and the rest
  have hub : ∀ (c : Dev nD) (W : Valuation τ sig Val),
      (StableHlo.held (c.tc : Thread nD τ) (ucRefs τ sig) W : sProp 𝕄)
        = iprop((arrBufs (cfgs p).spec c (fun b => W (Proc.devRef .tc b)) : sProp 𝕄) ∗ unscopedRest (cfgs p).spec c (fun b => W (Proc.devRef .tc b))) := fun c W =>
    (unscopedBufs_held (Ix := Unit) (Name := ℕ) (U := UR sig nD τ) (Lvl := ℕ) c W).symm.trans
      (unscopedBufs_split₀ cfgs p hw.arr_unscoped (Ix := Unit) (Name := ℕ) (U := UR sig nD τ) (Lvl := ℕ) c (fun b => W (Proc.devRef .tc b)))
  have hrestEq : ∀ c, (unscopedRest (cfgs p).spec c (fun b => VN c (Proc.devRef .tc b)) : sProp 𝕄)
      = unscopedRest (cfgs p).spec c (fun b => V₀ c (Proc.devRef .tc b)) := fun c => by
    unfold unscopedRest
    exact bigSep_congr fun b hb => by dsimp only; rw [hrest c b hb]
  exact θ_run_region_noSem_pf_tail (fun q => (cfgs q).toPCfg) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (VN c) (Proc.devRef .tc b)))
    (hX := fun c => by
      rw [unscopedRestP_none]
      iintro HU
      isplitr; · iempintro
      iexact HU)
    (hin := fun c => (show _ ⊢ (scopedRest (Ix := Unit) (Name := ℕ) (U := UR sig nD τ) (Lvl := ℕ) (Val := Val) (cfgs p).spec c : sProp 𝕄) from by
      iintro ⟨-, -, HR⟩; iexact HR).trans (hin c))
    (hout := fun c => (hout c).trans (by
      iintro HR
      isplitr; · iempintro
      iexact HR))
    (htail := fun c Q' => by
      have hcomb : iprop((dats p c).arrays ((dats p c).arrAt · (cfgs p).N)
            ∗ unscopedRest (Ix := Unit) (Name := ℕ) (U := UR sig nD τ) (Lvl := ℕ) (cfgs p).spec c (fun b => V₀ c (Proc.devRef .tc b)))
          ⊢ (StableHlo.held (c.tc : Thread nD τ) (ucRefs τ sig) (VN c) : sProp 𝕄) := by
        rw [hub c (VN c), hrestEq c]
        exact sep_mono (hmerge c) .rfl
      have hback : (StableHlo.held (c.tc : Thread nD τ) (ucRefs τ sig) (StableHlo.after opss.flatten (VN c)) : sProp 𝕄)
          ⊢ iprop((dats p c).arrays ((dats p c).arrAt · (cfgs p).N)
            ∗ unscopedRest (Ix := Unit) (Name := ℕ) (U := UR sig nD τ) (Lvl := ℕ) (cfgs p).spec c (fun b => StableHlo.after opss.flatten (VN c) (Proc.devRef .tc b))) := by
        rw [hub c (StableHlo.after opss.flatten (VN c))]
        exact sep_mono (hsplitN c) .rfl
      rw [← List.append_nil (opss.map StableHlo.seq)]
      iintro ⟨Hk, Hb, Ha, Hz⟩
      ihave Hh := hcomb $$ [Ha Hz]
      · isplitl [Ha] <;> iassumption
      iapply (wp_seqs_then (fun q => (cfgs q).toPCfg) defs₀ 𝒱₀ c (ucRefs τ sig) [] opss
        (fun ops ho op h => sub_ucRefs op (hsub ops ho op h)) hfresh (VN c)) $$ [Hb Hh]
      · isplitl [Hb] <;> iassumption
      iintro Hb'
      rw [chain_nil, wp_pure]
      imodintro
      iapply Hk
      icases Hb' with ⟨-, H⟩
      iapply hback
      iexact H)
    (QY := fun c s => ∀ b ∈ restRefs sig (cfgs p).spec,
      s.mem ((c.tc : Thread nD τ).loc b) = StableHlo.after opss.flatten (VN c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (VN c) (Proc.devRef .tc b)) s')
      isplitl [HU] <;> iassumption)
    (hQ := fun s h c => (h c).2.2)

end Cert.SharedTail

end
-- ==== Proof.AttnLaunch.lean ====
/-
  The launch of the attention gate kernel. Three windows stand on two buffers: the normalised rows, read by the query
  window and by the key window (each holds half of it), and the gate column the kernel writes. At the region's entry
  the two buffers, whole, make the three windows' arrays (the rows' buffer cut in two shares); at its exit the
  arrays make the two buffers again, the gate column now at what the write-backs left; the later host lines write
  neither buffer. The run is then the library's account of a region with host lines around it: every buffer that
  bypasses the region ends at the later lines' result from the exit contents.
-/
import proofs.«117570_j670014898399_1_alg».proof.Proof.AttnData
import proofs.«117570_j670014898399_1_alg».proof.Proof.AttnKeeps
import proofs.«117570_j670014898399_1_alg».proof.Proof.LibSharedTail
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

theorem linesBefore_sub : (linesBefore (F := F)).Forall fun ops => ops.Forall fun op => op.bufs ⊆ StableHlo.tcRefs τ sig :=
  ⟨hostOps0_sub, hostOps0_1_sub, hostOps0_2_sub, hostOps0_3_sub, hostOps0_4_sub⟩

theorem linesBefore_fresh : (linesBefore (F := F)).Forall fun ops => ops.Forall fun op => op.fresh = ∅ := by
  simp only [List.Forall]; repeat' constructor

theorem linesAfter_sub : ∀ ops ∈ (linesAfter (F := F)), ∀ op ∈ ops, op.bufs ⊆ StableHlo.tcRefs τ sig := by
  intro ops hops op hop
  simp only [List.mem_cons, List.not_mem_nil, or_false] at hops
  rcases hops with rfl | rfl | rfl
  · exact (List.forall_iff_forall_mem.mp hostOps1_sub) op hop
  · exact (List.forall_iff_forall_mem.mp hostOps1_1_sub) op hop
  · exact (List.forall_iff_forall_mem.mp hostOps1_2_sub) op hop

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem linesAfter_fresh : ∀ ops ∈ (linesAfter (F := F)), ∀ op ∈ ops, op.fresh = ∅ := by
  intro ops hops op hop
  simp only [List.mem_cons, List.not_mem_nil, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- @main is the earlier lines, the region, the later lines: it reduces to the region continued by the later lines,
    entered at the contents the earlier lines leave. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ((linesAfter (F := F)).map StableHlo.seq)) :=
  Pipeline.hmain_around cfgs 0 defs₀ 𝒱₀ m main linesBefore linesAfter linesBefore_sub linesBefore_fresh main_chain

/-! ## Two buffers behind three windows -/

/-- The windows' arrays are two buffers: the normalised rows and the gate column. -/
theorem arrImage : (Finset.univ.image (Pipeline.arrRef spec0) : Finset (Ref sig .tc)) = {main_v5, main_v6} := by decide

/-- The distinct buffers behind the arrays, at a valuation. -/
theorem arrBufs_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6) ↦{fullShare} W main_v6)) := by
  unfold Pipeline.arrBufs
  rw [arrImage, bigSep_insert (by decide), bigSep_singleton]
  rfl

/-- The three windows' arrays at contents `G`: the rows' buffer at the left and at the right half share, the gate column whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  unfold Dat.arrays
  rw [bigSep_W0, (arr_whole0 0).set_eq_univ, (arr_whole0 2).set_eq_univ]
  rfl

/-- The two buffers make the three arrays, when the arrays' contents are the buffers'. -/
theorem arrays_of_bufs (c : Dev nD) (W : (b : Ref sig .tc) → Buf (Elt F) ((c : Thread nD τ).loc b))
    (G : (w : Fin cfg0.W) → Buf (Elt F) ((cfg0.win w).arr.view.loc (c : Thread nD τ)))
    (h0 : G 0 = W main_v5) (h1 : G 1 = W main_v5) (h2 : G 2 = W main_v6) :
    (Pipeline.arrBufs spec0 c W : sProp 𝕄) ⊢ (dats m 0 c).arrays G := by
  rw [arrBufs_eq, arrays_eq3, h0, h1, h2]
  iintro ⟨H5, H6⟩
  ihave H5 := (pointsTo_share (PosShare.mem_left_op_right fullShare)).1 $$ H5
  icases H5 with ⟨Ha, Hb⟩
  isplitl [Ha]; · iexact Ha
  isplitl [Hb]; · iexact Hb
  iexact H6

/-- And the three arrays make the two buffers. -/
theorem bufs_of_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_v5) (h1 : G 1 = W main_v5) (h2 : G 2 = W main_v6) :
    ((dats m 0 c).arrays G : sProp 𝕄) ⊢ Pipeline.arrBufs spec0 c W := by
  rw [arrBufs_eq, arrays_eq3, h0, h1, h2]
  iintro ⟨Ha, Hb, H6⟩
  ihave H5 := (pointsTo_share (PosShare.mem_left_op_right fullShare)).2 $$ [Ha Hb]
  · isplitl [Ha] <;> iassumption
  isplitl [H5]; · iexact H5
  iexact H6

/-! ## The exit contents -/

/-- The gate column after the run, as the library computes it from the write-backs. -/
def gateCol (c : Dev nD) : Buf (Elt F) ((cfg0.win 2).arr.view.loc (c : Thread nD τ)) := (dats m 0 c).arrAt 2 cfg0.N

/-- Core `c`'s buffer contents when the region is left: as entered, the gate column at what the write-backs left. -/
def VN (c : Dev nD) : Valuation τ sig (Elt F) := Function.update (V0 m c) (Proc.devRef .tc main_v6) (gateCol m c)

theorem VN_gate (c : Dev nD) : VN m c (Proc.devRef .tc main_v6) = gateCol m c := Function.update_self ..

theorem VN_of_ne (c : Dev nD) (b : Ref sig .tc) (hb : b ≠ main_v6) : VN m c (Proc.devRef .tc b) = V0 m c (Proc.devRef .tc b) :=
  Function.update_of_ne (StableHlo.devRef_ne_of_ne hb) ..

/-- The inputs' arrays are never written: at every position they hold the entry contents. -/
theorem arrAt_rows0 (c : Dev nD) (t : ℕ) : (dats m 0 c).arrAt 0 t = V m c main_v5 := ((dats m 0 c).arrAt_in 0 rfl t).trans (A_eq m c 0)
theorem arrAt_rows1 (c : Dev nD) (t : ℕ) : (dats m 0 c).arrAt 1 t = V m c main_v5 := ((dats m 0 c).arrAt_in 1 rfl t).trans (A_eq m c 1)

/-! ## The run -/

-- the library theorem's implicit arguments are found by unifying its conclusion with this one, which takes unfolding
-- plain definitions in a metavariable's type
set_option backward.isDefEq.respectTransparency.types false in
/-- From any launch memory: every weakly fair execution of @main terminates, nothing faulting, and every buffer that is
    no window's array ends at what the later host lines compute from the exit contents `VN`. -/
theorem run_main (hbody : ∀ c, BodyObligation (dats m 0 c) (defs₀ (F := F)) Variants.none () Set.univ) :
    θ_run defs (onTc (τ := τ) (main (F := F))) (s₀ m ρ)
      (fun r => ∀ c : Dev nD, ∀ b ∈ Pipeline.restRefs sig spec0,
        r.2.mem ((c : Thread nD τ).loc b) = StableHlo.after (List.flatten (linesAfter (F := F))) (VN m c) (Proc.devRef .tc b)) :=
  Cert.SharedTail.θ_run_frame_shared_around cfgs (dats m) (0 : Fin 1) cellOf_inj winFacts₀0 block_pos0 arr_whole0 stage_whole0
    defs₀ Variants.none m ρ main (fun c => (hbody c).loose) (fun _ _ => rfl)
    (V0 m) (VN m) linesAfter linesAfter_sub linesAfter_fresh (hmain m Variants.none)
    (hsplit := fun c => arrays_of_bufs m c (V m c) _ (A_eq m c 0) (A_eq m c 1) (A_eq m c 2))
    (hmerge := fun c => bufs_of_arrays m c (fun b => VN m c (Proc.devRef .tc b)) _
      ((arrAt_rows0 m c _).trans (VN_of_ne m c main_v5 (by decide)).symm)
      ((arrAt_rows1 m c _).trans (VN_of_ne m c main_v5 (by decide)).symm)
      (VN_gate m c).symm)
    (hrest := fun c b hb => VN_of_ne m c b (fun h => (Finset.mem_sdiff.mp hb).2 (h ▸ (by rw [arrImage]; decide))))
    (hsplitN := fun c => arrays_of_bufs m c (fun b => StableHlo.after (List.flatten (linesAfter (F := F))) (VN m c) (Proc.devRef .tc b)) _
      ((arrAt_rows0 m c _).trans (((after_keeps (VN m c)).2.2.2.2.2.1).trans (VN_of_ne m c main_v5 (by decide))).symm)
      ((arrAt_rows1 m c _).trans (((after_keeps (VN m c)).2.2.2.2.2.1).trans (VN_of_ne m c main_v5 (by decide))).symm)
      ((((after_keeps (VN m c)).2.2.2.2.2.2).trans (VN_gate m c)).symm))
    (hin := fun c => by rw [show (dats m 0 c).Φ 0 = Rest c from rfl])
    (hout := fun c => by
      rw [show (dats m 0 c).Φ (Fin.last cfg0.N) = PhiS m c cfg0.N (le_refl _) from rfl,
        PhiS_pos m c cfg0.N (le_refl _) (by rw [show cfg0.N = 72 from N_0]; decide)]
      show _ ⊢ (Rest c : sProp 𝕄)
      rw [Rest_eq]
      iintro H; iexists _; iexact H)

end Cert.KernelIdeal.Attn

end
-- ==== Proof.AttnFrame.lean ====
/-
  The frame claim, and the result buffer, read off the run.

  The run leaves every buffer that bypasses the region at what the later host lines compute from the exit contents.
  The five arguments bypass the region; the later lines write none of them; the exit contents differ from the entry
  contents on the gate column only; and the earlier lines write none of them either. So each argument ends at what it
  was launched with. The result buffer bypasses the region too, and ends at the later lines' result from the exit contents.
-/
import proofs.«117570_j670014898399_1_alg».proof.Proof.AttnLaunch
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each argument is a buffer that bypasses the region. -/
theorem arg_mem_rest : main_arg0 ∈ Pipeline.restRefs sig spec0 ∧ main_arg1 ∈ Pipeline.restRefs sig spec0 ∧ main_arg2 ∈ Pipeline.restRefs sig spec0 ∧ main_arg3 ∈ Pipeline.restRefs sig spec0 ∧ main_arg4 ∈ Pipeline.restRefs sig spec0 ∧ main_v55 ∈ Pipeline.restRefs sig spec0 :=
  ⟨Pipeline.mem_restRefs_of main_arg0 (by decide) (by decide), Pipeline.mem_restRefs_of main_arg1 (by decide) (by decide),
    Pipeline.mem_restRefs_of main_arg2 (by decide) (by decide), Pipeline.mem_restRefs_of main_arg3 (by decide) (by decide),
    Pipeline.mem_restRefs_of main_arg4 (by decide) (by decide), Pipeline.mem_restRefs_of main_v55 (by decide) (by decide)⟩

/-- The exit contents at an argument are the launch contents: the region writes the gate column only, and the earlier
    host lines write no argument. -/
theorem VN_arg (c : Dev nD) :
    VN m c (Proc.devRef .tc main_arg0) = m ((c.tc : Thread nD τ).loc main_arg0)
    ∧ VN m c (Proc.devRef .tc main_arg1) = m ((c.tc : Thread nD τ).loc main_arg1)
    ∧ VN m c (Proc.devRef .tc main_arg2) = m ((c.tc : Thread nD τ).loc main_arg2)
    ∧ VN m c (Proc.devRef .tc main_arg3) = m ((c.tc : Thread nD τ).loc main_arg3)
    ∧ VN m c (Proc.devRef .tc main_arg4) = m ((c.tc : Thread nD τ).loc main_arg4) :=
  ⟨(VN_of_ne m c main_arg0 (by decide)).trans (before_keeps (fun b => m (c, b))).1,
    (VN_of_ne m c main_arg1 (by decide)).trans (before_keeps (fun b => m (c, b))).2.1,
    (VN_of_ne m c main_arg2 (by decide)).trans (before_keeps (fun b => m (c, b))).2.2.1,
    (VN_of_ne m c main_arg3 (by decide)).trans (before_keeps (fun b => m (c, b))).2.2.2.1,
    (VN_of_ne m c main_arg4 (by decide)).trans (before_keeps (fun b => m (c, b))).2.2.2.2⟩

/-- The result buffer after the run, and the arguments. -/
theorem run_result (hbody : ∀ c, BodyObligation (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_v55) = StableHlo.after (List.flatten (linesAfter (F := F))) (VN m c) (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c main_v55 arg_mem_rest.2.2.2.2.2,
      (h c main_arg0 arg_mem_rest.1).trans (((after_keeps (VN m c)).1).trans (VN_arg m c).1),
      (h c main_arg1 arg_mem_rest.2.1).trans (((after_keeps (VN m c)).2.1).trans (VN_arg m c).2.1),
      (h c main_arg2 arg_mem_rest.2.2.1).trans (((after_keeps (VN m c)).2.2.1).trans (VN_arg m c).2.2.1),
      (h c main_arg3 arg_mem_rest.2.2.2.1).trans (((after_keeps (VN m c)).2.2.2.1).trans (VN_arg m c).2.2.2.1),
      (h c main_arg4 arg_mem_rest.2.2.2.2.1).trans (((after_keeps (VN m c)).2.2.2.2.1).trans (VN_arg m c).2.2.2.2)⟩)
    (run_main m ρ hbody)

/-- After the run every argument holds what it was launched with. -/
theorem frame (hbody : ∀ c, BodyObligation (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ hbody)

end Cert.KernelIdeal.Attn

end
-- ==== Proof.WAttnData.lean ====
/-
  The attention gate kernel on its 6 × 12 grid, as data for the pipeline library.

  Point t = 12·q + k handles query rows 2048·q … 2048·q + 2047 (window 0, fetched when k = 0) against key rows
  1024·k … 1024·k + 1023 (window 1, fetched at every point); both windows read the SAME array, the normalised rows.
  A column of 2048 running sums is carried between points in a scratch buffer: reset to zero when k = 0, then at every
  point increased by the row sums of the logistic of the 2048 × 1024 score tile. At k = 11 the running sums times the
  constant 1/12288's float word are stored into the result window, which is written back there and is idle at every other point.
  What the scratch holds after point n is `accAt` (a recursion on the point over the body's own arithmetic), what the
  result window holds after a point with k = 11 is `outAt`.
-/
import proofs.«117570_j670014898399_1_alg».proof.Proof.Gen.Kernel.Launch
import proofs.«117570_j670014898399_1_alg».proof.Proof.Gen.Kernel.Skeleton
import proofs.«117570_j670014898399_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region: h = x·W, its row norms, the clip, the quotient, the change of format. -/
abbrev linesBefore : List (List (HloOp τ sig (Elt F))) := [hostOps0, hostOps0_1, hostOps0_2, hostOps0_3, hostOps0_4]
/-- The host lines after it: the graph convolution and the final product with the gate. -/
abbrev linesAfter : List (List (HloOp τ sig (Elt F))) := [hostOps1, hostOps1_1, hostOps1_2]

/-- Core `c`'s buffer contents when the region is entered: the lines before it have run. -/
abbrev V0 (c : Dev nD) : Valuation τ sig (Elt F) := StableHlo.after (List.flatten (linesBefore (F := F))) (fun b => m (c, b))
/-- The same read at a TensorCore reference. -/
abbrev V (c : Dev nD) (b : Ref sig .tc) : Buf (Elt F) ((c : Thread nD τ).loc b) := V0 m c (Proc.devRef .tc b)

/-! ## The windows' blocks, the memrefs, the conditions -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it, and its wholeness. -/
abbrev ms0 (t : Fin cfg0.N) : Memref sig .tc .vmem S2048x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The scratch column of running sums. -/
abbrev accM : Memref sig .tc .vmem S2048x1 .f32 := Memref.whole cc0_scratch0

/-- "This is the first key tile of a query tile" (k = 0), as the body computes it. -/
abbrev isFirst (i : grid0.Coords) : Prop := (Scalar.cmpi .ne (Scalar.extui (Scalar.cmpi .eq (BitVec.ofNat 32 (i 1).val) 0#32)) 0#32) = 1#1
/-- "This is the last key tile" (k = 11), as the body computes it. -/
abbrev isLast (i : grid0.Coords) : Prop := k0_cond2 i = 1#1

theorem isFirst_iff : ∀ t : Fin cfg0.N, isFirst (grid0.coords t) ↔ t.val % 12 = 0 :=
  (by decide +kernel : ∀ t : Fin grid0.N, isFirst (grid0.coords t) ↔ t.val % 12 = 0)
theorem isLast_iff : ∀ t : Fin cfg0.N, isLast (grid0.coords t) ↔ t.val % 12 = 11 :=
  (by decide +kernel : ∀ t : Fin grid0.N, isLast (grid0.coords t) ↔ t.val % 12 = 11)

/-- The inputs are never idle; the result window is idle exactly away from the last key tile, and not written back there. -/
theorem live0 : ∀ t : Fin cfg0.N, cfg0.idle 0 (grid0.coords t) = false := by decide +kernel
theorem live1 : ∀ t : Fin cfg0.N, cfg0.idle 1 (grid0.coords t) = false := by decide +kernel
theorem idle2_of_not_last : ∀ t : Fin cfg0.N, ¬ isLast (grid0.coords t) → cfg0.idle 2 (grid0.coords t) = true := by decide +kernel
theorem noFlush2_of_not_last : ∀ t : Fin cfg0.N, ¬ isLast (grid0.coords t) → (cfg0.win 2).flush t = false := by decide +kernel
theorem live2_of_last : ∀ t : Fin cfg0.N, isLast (grid0.coords t) → cfg0.idle 2 (grid0.coords t) = false := by decide +kernel

/-! ## The accumulation -/

/-- What the scratch column holds after the body at point `n`: the point's tile sums added to zero at the first key
    tile of a query tile, to what the point before left otherwise. -/
def accAt (c : Dev nD) : (n : ℕ) → n < cfg0.N → Vec F S2048x1 .f32
  | 0, hn => k0_pay2 (iblk m c 0 ⟨0, hn⟩) (iblk m c 1 ⟨0, hn⟩) (k0_pay1 (F := F))
  | n + 1, hn =>
    k0_pay2 (iblk m c 0 ⟨n + 1, hn⟩) (iblk m c 1 ⟨n + 1, hn⟩)
      (if (n + 1) % 12 = 0 then k0_pay1 (F := F) else accAt c n (Nat.lt_of_succ_lt hn))

/-- What the result window's staging buffer holds after a point that stores into it: the running sums times the constant 1/12288's float word. -/
def outAt (c : Dev nD) (t : Fin cfg0.N) : Vec F S2048x1 .f32 := k0_pay3 (accAt m c t.val t.isLt)

theorem accAt_first (c : Dev nD) (t : Fin cfg0.N) (h : t.val % 12 = 0) :
    accAt m c t.val t.isLt = k0_pay2 (iblk m c 0 t) (iblk m c 1 t) (k0_pay1 (F := F)) := by
  obtain ⟨n, hn⟩ := t
  cases n with
  | zero => rfl
  | succ n => exact (by show k0_pay2 _ _ (if (n + 1) % 12 = 0 then _ else _) = _; rw [if_pos h])

theorem accAt_next (c : Dev nD) (t : Fin cfg0.N) (h : ¬ t.val % 12 = 0) :
    accAt m c t.val t.isLt = k0_pay2 (iblk m c 0 t) (iblk m c 1 t) (accAt m c (t.val - 1) (Nat.lt_of_le_of_lt (Nat.sub_le _ _) t.isLt)) := by
  obtain ⟨n, hn⟩ := t
  cases n with
  | zero => exact absurd (Nat.zero_mod _) h
  | succ n => exact (by show k0_pay2 _ _ (if (n + 1) % 12 = 0 then _ else _) = _; rw [if_neg h]; rfl)

/-! ## The invariant and the proof data -/

/-- What the launch hands the invariant and takes back: the scratch column, whole, at some contents. -/
abbrev Rest (c : Dev nD) : sProp 𝕄 :=
  Pipeline.scopedRest (Ix := Unit) (Name := ℕ) (U := UR sig nD τ) (Lvl := ℕ) (Val := Elt F) spec0 c

/-- The region invariant before position `n`: before the first point the scratch at anything; afterwards at what the
    point before left in it. -/
def PhiS (c : Dev nD) : (n : ℕ) → n ≤ cfg0.N → sProp 𝕄
  | 0, _ => Rest c
  | n + 1, hn => owns (c : Thread nD τ) accM fullShare (accAt m c n hn)

theorem PhiS_zero (c : Dev nD) (n : ℕ) (h : n ≤ cfg0.N) (hz : n = 0) : PhiS m c n h = Rest c := by
  subst hz; rfl

theorem PhiS_succ (c : Dev nD) (n : ℕ) (hn : n < cfg0.N) :
    PhiS m c (n + 1) hn = owns (c : Thread nD τ) accM fullShare (accAt m c n hn) := rfl

theorem PhiS_pos (c : Dev nD) (n : ℕ) (h : n ≤ cfg0.N) (hz : n ≠ 0) :
    PhiS m c n h = owns (c : Thread nD τ) accM fullShare (accAt m c (n - 1) (by omega)) := by
  cases n with
  | zero => exact absurd rfl hz
  | succ n => rfl

/-- The invariant before the first point is the scratch at something. -/
theorem Rest_eq (c : Dev nD) :
    (Rest c : sProp 𝕄) = iprop(∃ d, owns (c : Thread nD τ) accM fullShare d) := by
  unfold Rest; rw [scopedRest0_eq]; simp only [accM, owns_whole]; try rfl

/-- The proof data on core `c`. The two input windows hold HALF the normalised rows' array each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

end Cert.Kernel.Attn

end
-- ==== Proof.WAttnRunFirst.lean ====
/-
  The attention gate kernel's body at the FIRST key tile of a query tile, on any whole memrefs: the scratch column,
  whatever it held, is reset to zero and then left at zero plus the row sums of the logistic of the score tile of the
  query block `x0` against the key block `x1`; the two blocks are read and left as they were, the result window is
  not touched.
-/
import proofs.«117570_j670014898399_1_alg».proof.Proof.WAttnData
import Idealize.ShloMosaic.Lib.Pipeline.Value

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zeroOffsets : (![0, 0] : Fin 2 → Nat) = fun _ => 0 := funext fun a => by fin_cases a <;> rfl

set_option maxHeartbeats 1000000 in
/-- The body at a first key tile. Both stores into the scratch go through the whole-shape rectangle at zero offsets:
    the load between them reads the zeros the first one stored, and the column reads back as what the second one
    stored, whatever the scratch held on entry (`xs`). -/
theorem run_first (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (arg5 : Memref sig .tc .vmem S2048x1 .f32) (harg5 : arg5.IsWhole)
    (hF : isFirst i) (hL : ¬ isLast i)
    (x0 : Vec F S2048x128 .bf16) (x1 : Vec F S1024x128 .bf16) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg5 fullShare xs
      ∗ (iprop(owns (c : Thread nD τ) arg2 fullShare x0 ∗ owns (c : Thread nD τ) arg3 fullShare x1
          ∗ owns (c : Thread nD τ) arg5 fullShare (k0_pay2 x0 x1 (k0_pay1 (F := F)))) -∗ K ⟨⟩))
    ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  · ipureintro
    sl_unfold_words
    rw [View.read_writes_eq_canon _ _ _ (fun y => ⟨_, List.Mem.head _, View.mem_set_unit_zero zeroOffsets inb_S2048x1_S2048x1_0_0 y⟩),
      View.canon_cons_unit_zero (S := S2048x1) zeroOffsets, View.readCov_unit_zero (S := S2048x1) _ zeroOffsets]
    simp only [View.readAt_eq_ld, harg2.read_unread, harg3.read_unread,
      View.ld_unit_zero (S := S2048x128) zeroOffsets, View.ld_unit_zero (S := S1024x128) zeroOffsets]

end Cert.Kernel.Attn

end
-- ==== Proof.WAttnRunMid.lean ====
/-
  The attention gate kernel's body at a MIDDLE key tile (neither the first nor the last of its query tile), on any
  whole memrefs: the scratch column, holding `xs`, is left at `xs` plus the row sums of the logistic of the score
  tile of the query block `x0` against the key block `x1`; the two blocks are read and left as they were, the result
  window is not touched.
-/
import proofs.«117570_j670014898399_1_alg».proof.Proof.WAttnData
import Idealize.ShloMosaic.Lib.Pipeline.Value

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zeroOffsets : (![0, 0] : Fin 2 → Nat) = fun _ => 0 := funext fun a => by fin_cases a <;> rfl

set_option maxHeartbeats 1000000 in
/-- The body at a middle key tile. The one store into the scratch goes through the whole-shape rectangle at zero
    offsets, so the column reads back as the stored sums; each load through such a rectangle reads the buffer's
    contents. -/
theorem run_mid (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (arg5 : Memref sig .tc .vmem S2048x1 .f32) (harg5 : arg5.IsWhole)
    (hF : ¬ isFirst i) (hL : ¬ isLast i)
    (x0 : Vec F S2048x128 .bf16) (x1 : Vec F S1024x128 .bf16) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg5 fullShare xs
      ∗ (iprop(owns (c : Thread nD τ) arg2 fullShare x0 ∗ owns (c : Thread nD τ) arg3 fullShare x1
          ∗ owns (c : Thread nD τ) arg5 fullShare (k0_pay2 x0 x1 xs)) -∗ K ⟨⟩))
    ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  · ipureintro
    rw [View.read_writes_eq_canon _ _ _ (fun y => ⟨_, List.mem_singleton_self _, View.mem_set_unit_zero zeroOffsets inb_S2048x1_S2048x1_0_0 y⟩),
      View.canon_unit_zero zeroOffsets]
    simp only [View.readAt_eq_ld, harg2.read_unread, harg3.read_unread, harg5.read_unread,
      View.ld_unit_zero (S := S2048x128) zeroOffsets, View.ld_unit_zero (S := S1024x128) zeroOffsets,
      View.ld_unit_zero (S := S2048x1) zeroOffsets]

end Cert.Kernel.Attn

end
-- ==== Proof.WAttnRunLast.lean ====
/-
  The attention gate kernel's body at the LAST key tile of a query tile (which is not also the first), on any whole
  memrefs: the scratch column, holding `xs`, is left at `xs` plus the row sums of the logistic of the score tile of
  the query block `x0` against the key block `x1`, and the result window, whatever it held, at that column times the
  constant 1/12288's float word; the two blocks are read and left as they were.
-/
import proofs.«117570_j670014898399_1_alg».proof.Proof.WAttnData
import Idealize.ShloMosaic.Lib.Pipeline.Value

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zeroOffsets : (![0, 0] : Fin 2 → Nat) = fun _ => 0 := funext fun a => by fin_cases a <;> rfl

set_option maxHeartbeats 1000000 in
/-- The body at a last key tile. Every store goes through the whole-shape rectangle at zero offsets: the scratch
    reads back as the sums stored into it, the load of it under the second condition reads those sums, and the
    result window reads back as their scaling, whatever it held on entry (`xo`). -/
theorem run_last (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (arg5 : Memref sig .tc .vmem S2048x1 .f32) (harg5 : arg5.IsWhole)
    (hF : ¬ isFirst i) (hL : isLast i)
    (x0 : Vec F S2048x128 .bf16) (x1 : Vec F S1024x128 .bf16) (xo xs : Vec F S2048x1 .f32)
    (E : Set ℕ) (K : PUnit → sProp 𝕄) :
    iprop(owns (c : Thread nD τ) arg2 fullShare x0 ∗ owns (c : Thread nD τ) arg3 fullShare x1
      ∗ owns (c : Thread nD τ) arg4 fullShare xo ∗ owns (c : Thread nD τ) arg5 fullShare xs
      ∗ (iprop(owns (c : Thread nD τ) arg2 fullShare x0 ∗ owns (c : Thread nD τ) arg3 fullShare x1
          ∗ owns (c : Thread nD τ) arg4 fullShare (k0_pay3 (k0_pay2 x0 x1 xs))
          ∗ owns (c : Thread nD τ) arg5 fullShare (k0_pay2 x0 x1 xs)) -∗ K ⟨⟩))
    ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1
  obtain rfl := harg4.eq_unread hfo; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    · ipureintro
      sl_unfold_words
      rw [View.read_writes_eq_canon _ _ _ (fun y => ⟨_, List.mem_singleton_self _, View.mem_set_unit_zero zeroOffsets inb_S2048x1_S2048x1_0_0 y⟩),
        View.canon_unit_zero zeroOffsets, View.readCov_unit_zero (S := S2048x1) _ zeroOffsets]
      simp only [View.readAt_eq_ld, harg2.read_unread, harg3.read_unread, harg5.read_unread,
        View.ld_unit_zero (S := S2048x128) zeroOffsets, View.ld_unit_zero (S := S1024x128) zeroOffsets,
        View.ld_unit_zero (S := S2048x1) zeroOffsets]
  iexists _; isplitr
  swap; · iexact HS
  · ipureintro
    sl_unfold_words
    rw [View.read_writes_eq_canon _ _ _ (fun y => ⟨_, List.mem_singleton_self _, View.mem_set_unit_zero zeroOffsets inb_S2048x1_S2048x1_0_0 y⟩),
      View.canon_unit_zero zeroOffsets]
    simp only [View.readAt_eq_ld, harg2.read_unread, harg3.read_unread, harg5.read_unread,
      View.ld_unit_zero (S := S2048x128) zeroOffsets, View.ld_unit_zero (S := S1024x128) zeroOffsets,
      View.ld_unit_zero (S := S2048x1) zeroOffsets]

end Cert.Kernel.Attn

end
-- ==== Proof.WAttnBody.lean ====
/-
  The body obligation of the attention gate kernel on its 6 × 12 grid.

  At point t = 12·q + k the pipeline hands the body the query block (window 0), the key block (window 1), the result
  window's staging buffer and the invariant: the scratch column at what the point before left in it (at anything
  before the first point). The body is in one of three cases, by k: FIRST (k = 0: the column is reset, then the tile's
  sums are added), MIDDLE (the tile's sums are added to the column), LAST (k = 11: the same, then the column times
  the constant 1/12288's float word is stored into the result window). Each case is the body's run on whole memrefs (the three run
  modules); the recursion `accAt` names the column each case leaves, `outAt` the result window after a last tile; away
  from a last tile the result window is idle and not written back, and its buffer is handed back untouched.
-/
import proofs.«117570_j670014898399_1_alg».proof.Proof.WAttnData
import proofs.«117570_j670014898399_1_alg».proof.Proof.WAttnRunFirst
import proofs.«117570_j670014898399_1_alg».proof.Proof.WAttnRunMid
import proofs.«117570_j670014898399_1_alg».proof.Proof.WAttnRunLast

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns: the invariant at the next point, the same debt, each buffer at what the body leaves in it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's residue mod 12 says which case it is in
    (0 and 11 at once is impossible); the invariant hands over the scratch column — at anything at the very first
    point, else at what the point before left — and takes it back at this point's sums, which the recursion unfolds
    to by the case; the result window is stored into at a last tile only and is handed back as found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  have hN : t.val < 72 := lt_of_lt_of_eq t.isLt (show cfg0.N = 72 from N_0)
  by_cases h0 : t.val % 12 = 0
  · by_cases h1 : t.val % 12 = 11
    · exfalso; omega
    · -- a first key tile
      have hF : isFirst (grid0.coords t) := (isFirst_iff t).mpr h0
      have hL : ¬ isLast (grid0.coords t) := fun h => h1 ((isLast_iff t).mp h)
      rw [Dat.leavesExact_idle (dats m 0 c) 2 t (idle2_of_not_last t hL) (noFlush2_of_not_last t hL)]
      rw [accAt_first m c t h0]
      by_cases hz : t.val = 0
      · rw [PhiS_castSucc m c t, PhiS_zero m c _ _ hz, Rest_eq]
        iintro ⟨⟨%ds, HS⟩, Ho, ⟨%d0, H0⟩, ⟨%d1, H1⟩, H2⟩
        iapply (run_first c (grid0.coords t) (ms0 t) (hs0 t) (ms1 t) (hs1 t) (ms2 t) (hs2 t) accM (Memref.isWhole_whole _)
          hF hL (iblk m c 0 t) (iblk m c 1 t) ds Set.univ _)
        isplitl [H0]; · iexact H0
        isplitl [H1]; · iexact H1
        isplitl [HS]; · iexact HS
        iintro ⟨H0, H1, HS⟩
        isplitl [HS]; · iexact HS
        isplitl [Ho]; · iexact Ho
        isplitl [H0]; · iexact H0
        isplitl [H1]; · iexact H1
        iexact H2
      · rw [PhiS_castSucc m c t, PhiS_pos m c _ _ hz]
        iintro ⟨HS, Ho, ⟨%d0, H0⟩, ⟨%d1, H1⟩, H2⟩
        iapply (run_first c (grid0.coords t) (ms0 t) (hs0 t) (ms1 t) (hs1 t) (ms2 t) (hs2 t) accM (Memref.isWhole_whole _)
          hF hL (iblk m c 0 t) (iblk m c 1 t)
          (accAt m c (t.val - 1) (Nat.lt_of_le_of_lt (Nat.sub_le _ _) t.isLt)) Set.univ _)
        isplitl [H0]; · iexact H0
        isplitl [H1]; · iexact H1
        isplitl [HS]; · iexact HS
        iintro ⟨H0, H1, HS⟩
        isplitl [HS]; · iexact HS
        isplitl [Ho]; · iexact Ho
        isplitl [H0]; · iexact H0
        isplitl [H1]; · iexact H1
        iexact H2
  · have hF : ¬ isFirst (grid0.coords t) := fun h => h0 ((isFirst_iff t).mp h)
    have hz : t.val ≠ 0 := fun hz => h0 (by rw [hz])
    by_cases h1 : t.val % 12 = 11
    · -- a last key tile
      have hL : isLast (grid0.coords t) := (isLast_iff t).mpr h1
      rw [show (dats m 0 c).leavesExact 2 t = owns (c : Thread nD τ) (ms2 t) fullShare ((dats m 0 c).after 2 t) from by
        unfold Dat.leavesExact; rw [live2_of_last t hL], after_2]
      unfold outAt
      rw [accAt_next m c t h0]
      rw [PhiS_castSucc m c t, PhiS_pos m c _ _ hz]
      iintro ⟨HS, Ho, ⟨%d0, H0⟩, ⟨%d1, H1⟩, ⟨%d2, H2⟩⟩
      iapply (run_last c (grid0.coords t) (ms0 t) (hs0 t) (ms1 t) (hs1 t) (ms2 t) (hs2 t) accM (Memref.isWhole_whole _)
        hF hL (iblk m c 0 t) (iblk m c 1 t) ((dats m 0 c).before 2 t d2)
        (accAt m c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · -- a middle key tile
      have hL : ¬ isLast (grid0.coords t) := fun h => h1 ((isLast_iff t).mp h)
      rw [Dat.leavesExact_idle (dats m 0 c) 2 t (idle2_of_not_last t hL) (noFlush2_of_not_last t hL)]
      rw [accAt_next m c t h0]
      rw [PhiS_castSucc m c t, PhiS_pos m c _ _ hz]
      iintro ⟨HS, Ho, ⟨%d0, H0⟩, ⟨%d1, H1⟩, H2⟩
      iapply (run_mid c (grid0.coords t) (ms0 t) (hs0 t) (ms1 t) (hs1 t) (ms2 t) (hs2 t) accM (Memref.isWhole_whole _)
        hF hL (iblk m c 0 t) (iblk m c 1 t)
        (accAt m c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS]; · iexact HS
      isplitl [Ho]; · iexact Ho
      isplitl [H0]; · iexact H0
      isplitl [H1]; · iexact H1
      iexact H2

/-- The library's body obligation, at every point. -/
theorem body_obligation (c : Dev nD) : BodyObligation (dats m 0 c) (defs₀ (F := F)) Variants.none () Set.univ := fun t => by
  rw [bigSep_W0, bigSep_W0]
  exact sound_body m c t

end Cert.Kernel.Attn

end
-- ==== Proof.WAttnKeeps.lean ====
/-
  What the host lines leave alone. The lines before the region write neither an argument of the program; the lines
  after it write neither an argument, nor the normalised rows, nor the gate column the kernel produced: each line
  writes its own result buffer only.
-/
import proofs.«117570_j670014898399_1_alg».proof.Proof.WAttnData
import Idealize.ShloMosaic.Lib.StableHlo.Run
set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
/-- The lines after the region leave the arguments, the normalised rows and the gate column as they find them. -/
theorem after_keeps (W : Valuation τ sig (Elt F)) :
    StableHlo.after (List.flatten (linesAfter (F := F))) W (Proc.devRef .tc main_arg0) = W (Proc.devRef .tc main_arg0)
    ∧ StableHlo.after (List.flatten (linesAfter (F := F))) W (Proc.devRef .tc main_arg1) = W (Proc.devRef .tc main_arg1)
    ∧ StableHlo.after (List.flatten (linesAfter (F := F))) W (Proc.devRef .tc main_arg2) = W (Proc.devRef .tc main_arg2)
    ∧ StableHlo.after (List.flatten (linesAfter (F := F))) W (Proc.devRef .tc main_arg3) = W (Proc.devRef .tc main_arg3)
    ∧ StableHlo.after (List.flatten (linesAfter (F := F))) W (Proc.devRef .tc main_arg4) = W (Proc.devRef .tc main_arg4)
    ∧ StableHlo.after (List.flatten (linesAfter (F := F))) W (Proc.devRef .tc main_v5) = W (Proc.devRef .tc main_v5)
    ∧ StableHlo.after (List.flatten (linesAfter (F := F))) W (Proc.devRef .tc main_v6) = W (Proc.devRef .tc main_v6) := by
  simp only [linesAfter, hostOps1, hostOps1_1, hostOps1_2, List.flatten_cons, List.flatten_nil, List.append_nil, List.cons_append, List.nil_append]
  refine ⟨?_, ?_, ?_, ?_, ?_, ?_, ?_⟩ <;> (after_results_simp <;> rfl)

open Idealize.ShloMosaic.StableHlo in
/-- The lines before the region leave the arguments as launched. -/
theorem before_keeps (W : Valuation τ sig (Elt F)) :
    StableHlo.after (List.flatten (linesBefore (F := F))) W (Proc.devRef .tc main_arg0) = W (Proc.devRef .tc main_arg0)
    ∧ StableHlo.after (List.flatten (linesBefore (F := F))) W (Proc.devRef .tc main_arg1) = W (Proc.devRef .tc main_arg1)
    ∧ StableHlo.after (List.flatten (linesBefore (F := F))) W (Proc.devRef .tc main_arg2) = W (Proc.devRef .tc main_arg2)
    ∧ StableHlo.after (List.flatten (linesBefore (F := F))) W (Proc.devRef .tc main_arg3) = W (Proc.devRef .tc main_arg3)
    ∧ StableHlo.after (List.flatten (linesBefore (F := F))) W (Proc.devRef .tc main_arg4) = W (Proc.devRef .tc main_arg4) := by
  simp only [linesBefore, hostOps0, hostOps0_1, hostOps0_2, hostOps0_3, hostOps0_4, List.flatten_cons, List.flatten_nil, List.append_nil, List.cons_append, List.nil_append]
  refine ⟨?_, ?_, ?_, ?_, ?_⟩ <;> (after_results_simp <;> rfl)

end Cert.Kernel.Attn

end
-- ==== Proof.WAttnLaunch.lean ====
/-
  The launch of the attention gate kernel. Three windows stand on two buffers: the normalised rows, read by the query
  window and by the key window (each holds half of it), and the gate column the kernel writes. At the region's entry
  the two buffers, whole, make the three windows' arrays (the rows' buffer cut in two shares); at its exit the
  arrays make the two buffers again, the gate column now at what the write-backs left; the later host lines write
  neither buffer. The run is then the library's account of a region with host lines around it: every buffer that
  bypasses the region ends at the later lines' result from the exit contents.
-/
import proofs.«117570_j670014898399_1_alg».proof.Proof.WAttnData
import proofs.«117570_j670014898399_1_alg».proof.Proof.WAttnKeeps
import proofs.«117570_j670014898399_1_alg».proof.Proof.LibSharedTail
set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem linesBefore_sub : (linesBefore (F := F)).Forall fun ops => ops.Forall fun op => op.bufs ⊆ StableHlo.tcRefs τ sig :=
  ⟨hostOps0_sub, hostOps0_1_sub, hostOps0_2_sub, hostOps0_3_sub, hostOps0_4_sub⟩

theorem linesBefore_fresh : (linesBefore (F := F)).Forall fun ops => ops.Forall fun op => op.fresh = ∅ := by
  simp only [List.Forall]; repeat' constructor

theorem linesAfter_sub : ∀ ops ∈ (linesAfter (F := F)), ∀ op ∈ ops, op.bufs ⊆ StableHlo.tcRefs τ sig := by
  intro ops hops op hop
  simp only [List.mem_cons, List.not_mem_nil, or_false] at hops
  rcases hops with rfl | rfl | rfl
  · exact (List.forall_iff_forall_mem.mp hostOps1_sub) op hop
  · exact (List.forall_iff_forall_mem.mp hostOps1_1_sub) op hop
  · exact (List.forall_iff_forall_mem.mp hostOps1_2_sub) op hop

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem linesAfter_fresh : ∀ ops ∈ (linesAfter (F := F)), ∀ op ∈ ops, op.fresh = ∅ := by
  intro ops hops op hop
  simp only [List.mem_cons, List.not_mem_nil, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- @main is the earlier lines, the region, the later lines: it reduces to the region continued by the later lines,
    entered at the contents the earlier lines leave. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ((linesAfter (F := F)).map StableHlo.seq)) :=
  Pipeline.hmain_around cfgs 0 defs₀ 𝒱₀ m main linesBefore linesAfter linesBefore_sub linesBefore_fresh main_chain

/-! ## Two buffers behind three windows -/

/-- The windows' arrays are two buffers: the normalised rows and the gate column. -/
theorem arrImage : (Finset.univ.image (Pipeline.arrRef spec0) : Finset (Ref sig .tc)) = {main_v5, main_v6} := by decide

/-- The distinct buffers behind the arrays, at a valuation. -/
theorem arrBufs_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6) ↦{fullShare} W main_v6)) := by
  unfold Pipeline.arrBufs
  rw [arrImage, bigSep_insert (by decide), bigSep_singleton]
  rfl

/-- The three windows' arrays at contents `G`: the rows' buffer at the left and at the right half share, the gate column whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  unfold Dat.arrays
  rw [bigSep_W0, (arr_whole0 0).set_eq_univ, (arr_whole0 2).set_eq_univ]
  rfl

/-- The two buffers make the three arrays, when the arrays' contents are the buffers'. -/
theorem arrays_of_bufs (c : Dev nD) (W : (b : Ref sig .tc) → Buf (Elt F) ((c : Thread nD τ).loc b))
    (G : (w : Fin cfg0.W) → Buf (Elt F) ((cfg0.win w).arr.view.loc (c : Thread nD τ)))
    (h0 : G 0 = W main_v5) (h1 : G 1 = W main_v5) (h2 : G 2 = W main_v6) :
    (Pipeline.arrBufs spec0 c W : sProp 𝕄) ⊢ (dats m 0 c).arrays G := by
  rw [arrBufs_eq, arrays_eq3, h0, h1, h2]
  iintro ⟨H5, H6⟩
  ihave H5 := (pointsTo_share (PosShare.mem_left_op_right fullShare)).1 $$ H5
  icases H5 with ⟨Ha, Hb⟩
  isplitl [Ha]; · iexact Ha
  isplitl [Hb]; · iexact Hb
  iexact H6

/-- And the three arrays make the two buffers. -/
theorem bufs_of_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_v5) (h1 : G 1 = W main_v5) (h2 : G 2 = W main_v6) :
    ((dats m 0 c).arrays G : sProp 𝕄) ⊢ Pipeline.arrBufs spec0 c W := by
  rw [arrBufs_eq, arrays_eq3, h0, h1, h2]
  iintro ⟨Ha, Hb, H6⟩
  ihave H5 := (pointsTo_share (PosShare.mem_left_op_right fullShare)).2 $$ [Ha Hb]
  · isplitl [Ha] <;> iassumption
  isplitl [H5]; · iexact H5
  iexact H6

/-! ## The exit contents -/

/-- The gate column after the run, as the library computes it from the write-backs. -/
def gateCol (c : Dev nD) : Buf (Elt F) ((cfg0.win 2).arr.view.loc (c : Thread nD τ)) := (dats m 0 c).arrAt 2 cfg0.N

/-- Core `c`'s buffer contents when the region is left: as entered, the gate column at what the write-backs left. -/
def VN (c : Dev nD) : Valuation τ sig (Elt F) := Function.update (V0 m c) (Proc.devRef .tc main_v6) (gateCol m c)

theorem VN_gate (c : Dev nD) : VN m c (Proc.devRef .tc main_v6) = gateCol m c := Function.update_self ..

theorem VN_of_ne (c : Dev nD) (b : Ref sig .tc) (hb : b ≠ main_v6) : VN m c (Proc.devRef .tc b) = V0 m c (Proc.devRef .tc b) :=
  Function.update_of_ne (StableHlo.devRef_ne_of_ne hb) ..

/-- The inputs' arrays are never written: at every position they hold the entry contents. -/
theorem arrAt_rows0 (c : Dev nD) (t : ℕ) : (dats m 0 c).arrAt 0 t = V m c main_v5 := ((dats m 0 c).arrAt_in 0 rfl t).trans (A_eq m c 0)
theorem arrAt_rows1 (c : Dev nD) (t : ℕ) : (dats m 0 c).arrAt 1 t = V m c main_v5 := ((dats m 0 c).arrAt_in 1 rfl t).trans (A_eq m c 1)

/-! ## The run -/

-- the library theorem's implicit arguments are found by unifying its conclusion with this one, which takes unfolding
-- plain definitions in a metavariable's type
set_option backward.isDefEq.respectTransparency.types false in
/-- From any launch memory: every weakly fair execution of @main terminates, nothing faulting, and every buffer that is
    no window's array ends at what the later host lines compute from the exit contents `VN`. -/
theorem run_main (hbody : ∀ c, BodyObligation (dats m 0 c) (defs₀ (F := F)) Variants.none () Set.univ) :
    θ_run defs (onTc (τ := τ) (main (F := F))) (s₀ m ρ)
      (fun r => ∀ c : Dev nD, ∀ b ∈ Pipeline.restRefs sig spec0,
        r.2.mem ((c : Thread nD τ).loc b) = StableHlo.after (List.flatten (linesAfter (F := F))) (VN m c) (Proc.devRef .tc b)) :=
  Cert.SharedTail.θ_run_frame_shared_around cfgs (dats m) (0 : Fin 1) cellOf_inj winFacts₀0 block_pos0 arr_whole0 stage_whole0
    defs₀ Variants.none m ρ main (fun c => (hbody c).loose) (fun _ _ => rfl)
    (V0 m) (VN m) linesAfter linesAfter_sub linesAfter_fresh (hmain m Variants.none)
    (hsplit := fun c => arrays_of_bufs m c (V m c) _ (A_eq m c 0) (A_eq m c 1) (A_eq m c 2))
    (hmerge := fun c => bufs_of_arrays m c (fun b => VN m c (Proc.devRef .tc b)) _
      ((arrAt_rows0 m c _).trans (VN_of_ne m c main_v5 (by decide)).symm)
      ((arrAt_rows1 m c _).trans (VN_of_ne m c main_v5 (by decide)).symm)
      (VN_gate m c).symm)
    (hrest := fun c b hb => VN_of_ne m c b (fun h => (Finset.mem_sdiff.mp hb).2 (h ▸ (by rw [arrImage]; decide))))
    (hsplitN := fun c => arrays_of_bufs m c (fun b => StableHlo.after (List.flatten (linesAfter (F := F))) (VN m c) (Proc.devRef .tc b)) _
      ((arrAt_rows0 m c _).trans (((after_keeps (VN m c)).2.2.2.2.2.1).trans (VN_of_ne m c main_v5 (by decide))).symm)
      ((arrAt_rows1 m c _).trans (((after_keeps (VN m c)).2.2.2.2.2.1).trans (VN_of_ne m c main_v5 (by decide))).symm)
      ((((after_keeps (VN m c)).2.2.2.2.2.2).trans (VN_gate m c)).symm))
    (hin := fun c => by rw [show (dats m 0 c).Φ 0 = Rest c from rfl])
    (hout := fun c => by
      rw [show (dats m 0 c).Φ (Fin.last cfg0.N) = PhiS m c cfg0.N (le_refl _) from rfl,
        PhiS_pos m c cfg0.N (le_refl _) (by rw [show cfg0.N = 72 from N_0]; decide)]
      show _ ⊢ (Rest c : sProp 𝕄)
      rw [Rest_eq]
      iintro H; iexists _; iexact H)

end Cert.Kernel.Attn

end
-- ==== Proof.WAttnFrame.lean ====
/-
  The frame claim, and the result buffer, read off the run.

  The run leaves every buffer that bypasses the region at what the later host lines compute from the exit contents.
  The five arguments bypass the region; the later lines write none of them; the exit contents differ from the entry
  contents on the gate column only; and the earlier lines write none of them either. So each argument ends at what it
  was launched with. The result buffer bypasses the region too, and ends at the later lines' result from the exit contents.
-/
import proofs.«117570_j670014898399_1_alg».proof.Proof.WAttnLaunch
set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each argument is a buffer that bypasses the region. -/
theorem arg_mem_rest : main_arg0 ∈ Pipeline.restRefs sig spec0 ∧ main_arg1 ∈ Pipeline.restRefs sig spec0 ∧ main_arg2 ∈ Pipeline.restRefs sig spec0 ∧ main_arg3 ∈ Pipeline.restRefs sig spec0 ∧ main_arg4 ∈ Pipeline.restRefs sig spec0 ∧ main_v55 ∈ Pipeline.restRefs sig spec0 :=
  ⟨Pipeline.mem_restRefs_of main_arg0 (by decide) (by decide), Pipeline.mem_restRefs_of main_arg1 (by decide) (by decide),
    Pipeline.mem_restRefs_of main_arg2 (by decide) (by decide), Pipeline.mem_restRefs_of main_arg3 (by decide) (by decide),
    Pipeline.mem_restRefs_of main_arg4 (by decide) (by decide), Pipeline.mem_restRefs_of main_v55 (by decide) (by decide)⟩

/-- The exit contents at an argument are the launch contents: the region writes the gate column only, and the earlier
    host lines write no argument. -/
theorem VN_arg (c : Dev nD) :
    VN m c (Proc.devRef .tc main_arg0) = m ((c.tc : Thread nD τ).loc main_arg0)
    ∧ VN m c (Proc.devRef .tc main_arg1) = m ((c.tc : Thread nD τ).loc main_arg1)
    ∧ VN m c (Proc.devRef .tc main_arg2) = m ((c.tc : Thread nD τ).loc main_arg2)
    ∧ VN m c (Proc.devRef .tc main_arg3) = m ((c.tc : Thread nD τ).loc main_arg3)
    ∧ VN m c (Proc.devRef .tc main_arg4) = m ((c.tc : Thread nD τ).loc main_arg4) :=
  ⟨(VN_of_ne m c main_arg0 (by decide)).trans (before_keeps (fun b => m (c, b))).1,
    (VN_of_ne m c main_arg1 (by decide)).trans (before_keeps (fun b => m (c, b))).2.1,
    (VN_of_ne m c main_arg2 (by decide)).trans (before_keeps (fun b => m (c, b))).2.2.1,
    (VN_of_ne m c main_arg3 (by decide)).trans (before_keeps (fun b => m (c, b))).2.2.2.1,
    (VN_of_ne m c main_arg4 (by decide)).trans (before_keeps (fun b => m (c, b))).2.2.2.2⟩

/-- The result buffer after the run, and the arguments. -/
theorem run_result (hbody : ∀ c, BodyObligation (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_v55) = StableHlo.after (List.flatten (linesAfter (F := F))) (VN m c) (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c main_v55 arg_mem_rest.2.2.2.2.2,
      (h c main_arg0 arg_mem_rest.1).trans (((after_keeps (VN m c)).1).trans (VN_arg m c).1),
      (h c main_arg1 arg_mem_rest.2.1).trans (((after_keeps (VN m c)).2.1).trans (VN_arg m c).2.1),
      (h c main_arg2 arg_mem_rest.2.2.1).trans (((after_keeps (VN m c)).2.2.1).trans (VN_arg m c).2.2.1),
      (h c main_arg3 arg_mem_rest.2.2.2.1).trans (((after_keeps (VN m c)).2.2.2.1).trans (VN_arg m c).2.2.2.1),
      (h c main_arg4 arg_mem_rest.2.2.2.2.1).trans (((after_keeps (VN m c)).2.2.2.2.1).trans (VN_arg m c).2.2.2.2)⟩)
    (run_main m ρ hbody)

/-- After the run every argument holds what it was launched with. -/
theorem frame (hbody : ∀ c, BodyObligation (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ hbody)

end Cert.Kernel.Attn

end
-- ==== Proof.AttnGate.lean ====
/-
  Reading the gate column and the input blocks at an index.

  The result window's blocks are the six stretches of 2048 rows; stretch q is written back once, at point 12·q + 11,
  so row 2048·q + r of the gate column after the run is entry r of what that point left in its staging buffer. The
  query block at point t is rows 2048·(t / 12) … of the normalised rows, the key block rows 1024·(t % 12) ….
-/
import proofs.«117570_j670014898399_1_alg».proof.Proof.AttnData
import proofs.«117570_j670014898399_1_alg».proof.Proof.AttnLaunch
import Idealize.ShloMosaic.Lib.Pipeline.Value
import Idealize.ShloMosaic.Lib.ValueIdx
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps over the grid: the query and result windows move with t / 12, the key window with t % 12. -/
theorem idx_facts : ∀ t : Fin cfg0.N, win0_2.index t (0 : Fin 2) = t.val / 12 ∧ win0_2.index t (1 : Fin 2) = 0
    ∧ win0_0.index t (0 : Fin 2) = t.val / 12 ∧ win0_0.index t (1 : Fin 2) = 0
    ∧ win0_1.index t (0 : Fin 2) = t.val % 12 ∧ win0_1.index t (1 : Fin 2) = 0 :=
  (by decide +kernel : ∀ t : Fin grid0.N, _)

/-- An index of the gate column is in point `t`'s block iff its row is in the block's stretch. -/
theorem mem_blk2 (t : Fin cfg0.N) (i : S12288x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v6).slice (win0_2.rect t)).set ↔ _
  rw [View.set_slice_whole, Rect.mem_set_unit]
  exact Iff.rfl

/-- Two different write-backs of the gate column touch different stretches of rows. -/
theorem blk2_disjoint : ∀ t t' : Fin cfg0.N, (cfg0.win 2).flush t = true → (cfg0.win 2).flush t' = true → t ≠ t' →
    Disjoint ((cfg0.win 2).blk t).view.set ((cfg0.win 2).blk t').view.set := by
  intro t t' hf hf' hne
  rw [Finset.disjoint_left]
  intro i hi hi'
  rw [mem_blk2] at hi hi'
  have b : win0_2.index t (0 : Fin 2) * 2048 ≤ (i 0).val ∧ (i 0).val < win0_2.index t (0 : Fin 2) * 2048 + 2048 := hi 0
  have b' : win0_2.index t' (0 : Fin 2) * 2048 ≤ (i 0).val ∧ (i 0).val < win0_2.index t' (0 : Fin 2) * 2048 + 2048 := hi' 0
  have e := (idx_facts t).1
  have e' := (idx_facts t').1
  have h11 := (flush0_2 t).mp hf
  have h11' := (flush0_2 t').mp hf'
  have : t.val ≠ t'.val := fun h => hne (Fin.ext h)
  omega

/-- Row 2048·q + r of the gate column after the run is entry r of what point 12·q + 11 left in the result window. -/
theorem gateCol_apply (c : Dev nD) (q : Fin 6) (r : Fin 2048) :
    gateCol m c (ix2 (⟨2048 * q.val + r.val, by omega⟩ : Fin 12288) (0 : Fin 1))
      = outAt m c ⟨12 * q.val + 11, by rw [show cfg0.N = 72 from N_0]; omega⟩ (ix2 r (0 : Fin 1)) := by
  have hN : cfg0.N = 72 := N_0
  set t : Fin cfg0.N := ⟨12 * q.val + 11, by rw [hN]; omega⟩ with ht
  have hf : (cfg0.win 2).flush t = true := (flush0_2 t).mpr (by show (12 * q.val + 11) % 12 = 11; omega)
  have h := (dats m 0 c).arrAt_emb_eq_flushed 2 blk2_disjoint t hf (ix2 r (0 : Fin 1))
  have hemb : ((cfg0.win 2).blk t).view.emb (ix2 r (0 : Fin 1)) = ix2 (⟨2048 * q.val + r.val, by omega⟩ : Fin 12288) (0 : Fin 1) := by
    obtain ⟨e0, e1, -⟩ := idx_facts t
    funext a; apply Fin.ext
    match a with
    | ⟨0, _⟩ => show win0_2.index t (0 : Fin 2) * 2048 + 1 * r.val = 2048 * q.val + r.val; rw [e0]; show (12 * q.val + 11) / 12 * 2048 + 1 * r.val = _; omega
    | ⟨1, _⟩ => show win0_2.index t (1 : Fin 2) * 1 + 1 * 0 = 0; rw [e1]
  unfold gateCol
  rw [← hemb, h]
  show (cfg0.win 2).cut (grid0.coords t) ((dats m 0 c).after 2 t) (ix2 r (0 : Fin 1)) = _
  rw [after_2]
  rfl

/-- The query block at point `t` is rows 2048·(t / 12) + r of the normalised rows. -/
theorem iblk0_apply (c : Dev nD) (t : Fin cfg0.N) (r : Fin 2048) (d : Fin 128) :
    iblk m c 0 t (ix2 r d) = V m c main_v5 (ix2 (⟨2048 * (t.val / 12) + r.val, by have := lt_of_lt_of_eq t.isLt (show cfg0.N = 72 from N_0); have := r.isLt; omega⟩ : Fin 12288) d) := by
  obtain ⟨-, -, e0, e1, -⟩ := idx_facts t
  show V m c main_v5 (((cfg0.win 0).blk t).view.emb (ix2 r d)) = _
  congr 1
  funext a; apply Fin.ext
  match a with
  | ⟨0, _⟩ => show win0_0.index t (0 : Fin 2) * 2048 + 1 * r.val = 2048 * (t.val / 12) + r.val; rw [e0]; omega
  | ⟨1, _⟩ => show win0_0.index t (1 : Fin 2) * 128 + 1 * d.val = d.val; rw [e1]; omega

/-- The key block at point `t` is rows 1024·(t % 12) + l of the normalised rows. -/
theorem iblk1_apply (c : Dev nD) (t : Fin cfg0.N) (l : Fin 1024) (d : Fin 128) :
    iblk m c 1 t (ix2 l d) = V m c main_v5 (ix2 (⟨1024 * (t.val % 12) + l.val, by omega⟩ : Fin 12288) d) := by
  obtain ⟨-, -, -, -, e0, e1⟩ := idx_facts t
  show V m c main_v5 (((cfg0.win 1).blk t).view.emb (ix2 l d)) = _
  congr 1
  funext a; apply Fin.ext
  match a with
  | ⟨0, _⟩ => show win0_1.index t (0 : Fin 2) * 1024 + 1 * l.val = 1024 * (t.val % 12) + l.val; rw [e0]; omega
  | ⟨1, _⟩ => show win0_1.index t (1 : Fin 2) * 128 + 1 * d.val = d.val; rw [e1]; omega

end Cert.KernelIdeal.Attn

end
-- ==== Proof.AttnPayload.lean ====
import proofs.«117570_j670014898399_1_alg».proof.Proof.Gen.KernelIdeal.Skeleton
import Idealize.ShloMosaic.Lib.ValueIdx
import Idealize.ShloMosaic.Lib.Pipeline.Value
import Idealize.ShloMosaic.PureOps.Ideal.Laws

/-!
  The kernel body's three stored values, read at one element, on the extended reals.

  A grid point holds a block `q` of 2048 query rows and a block `k` of 1024 key rows, both of width 128, and a
  column `acc` of 2048 running sums.
  * The first store writes the zero column.
  * The second adds to `acc[r]` the row sum `Σ_l logistic (Σ_d q[r,d] · k[l,d])` of the logistic of the scores
    `q · kᵀ`; the product accumulates into zero, and the row sum has no starting term of its own, so the zero it is
    written with below is the neutral element.
  * The third multiplies the column by the constant the certificate names `1/12288`.
-/

noncomputable section

open scoped BigOperators

namespace Cert.KernelIdeal.AttnValue

open Cert.KernelIdeal Cert.KernelIdeal.Gen Idealize.ShloMosaic Idealize.ShloMosaic.TcCoe Idealize.SL.Sem
open Idealize.ShloMosaic.ValueIdx (ix1 ix2)

/-! ## The scores `q · kᵀ`: both operands are contracted on their second axis -/

/-- The left operand is read in the result's row … -/
theorem lhs_row (i : S2048x1024.Idx) (q : dot_S2048x128_S1024x128_S2048x1024_1_1_0_0_n_n.contr.Idx) :
    (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch by decide), dif_pos (show (0 : Fin S2048x128.rank) ∈ dot_S2048x128_S1024x128_S2048x1024_1_1_0_0_n_n.lhsNonContracting by decide)]
  rfl
/-- … at the contraction position; -/
theorem lhs_col (i : S2048x1024.Idx) (q : dot_S2048x128_S1024x128_S2048x1024_1_1_0_0_n_n.contr.Idx) :
    (dot_S2048x128_S1024x128_S2048x1024_1_1_0_0_n_n.lhsIdx i q 1).val = (q ⟨0, by decide⟩).val :=
  dot_S2048x128_S1024x128_S2048x1024_1_1_0_0_n_n.lhsIdx_val_of_single rfl i q
/-- the right operand is read in the row the result's COLUMN names … -/
theorem rhs_row (i : S2048x1024.Idx) (q : dot_S2048x128_S1024x128_S2048x1024_1_1_0_0_n_n.contr.Idx) :
    (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch by decide), dif_pos (show (0 : Fin S1024x128.rank) ∈ dot_S2048x128_S1024x128_S2048x1024_1_1_0_0_n_n.rhsNonContracting by decide)]
  rfl
/-- … at the contraction position. -/
theorem rhs_col (i : S2048x1024.Idx) (q : dot_S2048x128_S1024x128_S2048x1024_1_1_0_0_n_n.contr.Idx) :
    (dot_S2048x128_S1024x128_S2048x1024_1_1_0_0_n_n.rhsIdx i q 1).val = (q ⟨0, by decide⟩).val :=
  dot_S2048x128_S1024x128_S2048x1024_1_1_0_0_n_n.rhsIdx_val_of_single rfl i q

/-- The score of query row `r` and key row `l`, accumulated into zero: `Σ_d q[r,d] · k[l,d]`. -/
theorem scores_apply (x0 : FVec Ideal S2048x128 .bf16) (x1 : FVec Ideal S1024x128 .bf16) (r : Fin 2048) (l : Fin 1024) :
    matmul (F := Ideal) dot_S2048x128_S1024x128_S2048x1024_1_1_0_0_n_n none x0 x1 (constant S2048x1024 .f32 0x00000000#32) (ix2 r l)
      = ∑ d : Fin 128, x0 (ix2 r d) * x1 (ix2 l d) := by
  simp only [matmul]
  rw [Ideal.matmul_constant_zero_apply, ← Equiv.sum_comp (ValueIdx.contrEquiv1 dot_S2048x128_S1024x128_S2048x1024_1_1_0_0_n_n 128 rfl rfl).symm]
  refine Finset.sum_congr rfl fun k _ => ?_
  have hk := ValueIdx.contrEquiv1_symm_val dot_S2048x128_S1024x128_S2048x1024_1_1_0_0_n_n 128 rfl rfl k
  have el : dot_S2048x128_S1024x128_S2048x1024_1_1_0_0_n_n.lhsIdx (ix2 r l) ((ValueIdx.contrEquiv1 dot_S2048x128_S1024x128_S2048x1024_1_1_0_0_n_n 128 rfl rfl).symm k) = ix2 r k := funext fun a => Fin.ext (by
    match a with
    | ⟨0, _⟩ => exact lhs_row _ _
    | ⟨1, _⟩ => exact (lhs_col _ _).trans hk)
  have er : dot_S2048x128_S1024x128_S2048x1024_1_1_0_0_n_n.rhsIdx (ix2 r l) ((ValueIdx.contrEquiv1 dot_S2048x128_S1024x128_S2048x1024_1_1_0_0_n_n 128 rfl rfl).symm k) = ix2 l k := funext fun a => Fin.ext (by
    match a with
    | ⟨0, _⟩ => exact rhs_row _ _
    | ⟨1, _⟩ => exact (rhs_col _ _).trans hk)
  rw [el, er]

/-! ## The row sum and the column it is cast to -/

/-- The sum along a row of a [2048, 1024] array, at row `r`: the 1024 entries of the row. -/
theorem rowsum_apply (s : FVec Ideal S2048x1024 .f32) (r : Fin 2048) :
    multiReduction (F := Ideal) .add [1] S2048 s 0x00000000#32 reduces_S2048x1024_S2048 (.inl rfl) rfl (ix1 r)
      = ∑ l : Fin 1024, s (ix2 r l) := by
  refine (Ideal.multiReduction_add_single s 0x00000000#32 reduces_S2048x1024_S2048 (.inl rfl) rfl (ix1 r)).trans ?_
  refine Finset.sum_congr rfl fun l _ => ?_
  exact congrArg s (funext fun a => Fin.ext (by match a with | ⟨0, _⟩ => rfl | ⟨1, _⟩ => rfl))

/-- A vector of 2048 entries cast to a column: entry `(r, 0)` of the column is entry `r` of the vector. -/
theorem col_cast_apply {α : Type} (v : S2048.Idx → α) (r : Fin 2048) :
    shapeCast S2048x1 v shapeCasts_S2048_S2048x1 (ix2 r (0 : Fin 1)) = v (ix1 r) := by
  refine shapeCast_apply v shapeCasts_S2048_S2048x1 (ix2 r (0 : Fin 1)) (ix1 r) ?_
  rw [Shape.rowMajor_val_one, Shape.rowMajor_val_two]
  show r.val = r.val * 1 + 0
  omega

/-! ## The named constant -/

/-- The constant the certificate names `inv_12288` denotes the rational `1/12288`, by the certificate's table. -/
theorem inv_12288 :
    Named.named (F := Ideal) Cert.KernelIdeal.κ "inv_12288" (φ := .f32) 0x38AAAAAB#32 = ((1 / 12288 : ℝ) : EReal) :=
  IdealRules.named_const.ideal_named_scalar _ _ _ _ rfl

/-! ## The three stored values -/

/-- The first store: the zero column. -/
theorem pay1_apply (r : Fin 2048) : k0_pay1 (F := Ideal) (ix2 r 0) = (0 : EReal) := by
  unfold k0_pay1
  simp only [shapeCast_self]
  exact Ideal.ofBits_zero_f32

/-- The second store: the running sum plus this key block's row sum of the logistic of the scores. -/
theorem pay2_apply (x0 : Vec Ideal S2048x128 .bf16) (x1 : Vec Ideal S1024x128 .bf16) (b : Vec Ideal S2048x1 .f32) (r : Fin 2048) :
    k0_pay2 (F := Ideal) x0 x1 b (ix2 r 0)
      = b (ix2 r 0) + ((0 : EReal) + ∑ l : Fin 1024, Ideal.logistic (∑ d : Fin 128, x0 (ix2 r d) * x1 (ix2 l d))) := by
  unfold k0_pay2
  simp only [shapeCast_self]
  rw [ValueIdx.addf_apply, col_cast_apply, rowsum_apply, zero_add]
  refine congrArg (b (ix2 r 0) + ·) (Finset.sum_congr rfl fun l _ => ?_)
  show FloatOps.logistic (matmul (F := Ideal) dot_S2048x128_S1024x128_S2048x1024_1_1_0_0_n_n none x0 x1 (constant S2048x1024 .f32 0x00000000#32) (ix2 r l)) = _
  rw [Ideal.logistic_def, scores_apply]

/-- The third store: the column times `1/12288`. -/
theorem pay3_apply (v : Vec Ideal S2048x1 .f32) (r : Fin 2048) :
    k0_pay3 (F := Ideal) v (ix2 r 0) = v (ix2 r 0) * (((1 / 12288 : ℝ) : ℝ) : EReal) := by
  unfold k0_pay3
  show v (ix2 r 0) * Named.named (F := Ideal) Cert.KernelIdeal.κ "inv_12288" (φ := .f32) 0x38AAAAAB#32 = _
  rw [inv_12288]

end Cert.KernelIdeal.AttnValue

end
-- ==== Proof.AttnTiles.lean ====
import Idealize.ShloMosaic.PureOps.Ideal

/-!
  A sum of 12288 extended reals taken twelve tiles of 1024 at a time.

  The terms are `f 0, f 1, …, f 12287`. Tile `k` holds the terms `f (1024 k), …, f (1024 k + 1023)`; its
  contribution is their sum added to zero. The running sum starts from zero at tile 0 and adds one tile's
  contribution per step. Addition on the extended reals is commutative and associative with neutral element zero
  (at the infinities too), so after the twelfth tile the running sum is the sum of all the terms: no finiteness
  of any term is used.
-/

noncomputable section

open scoped BigOperators

namespace Cert.Attn.Tiles

/-- One key tile's contribution: the 1024 terms of tile k, added to zero. -/
def tile (f : ℕ → EReal) (k : ℕ) : EReal := 0 + ∑ l : Fin 1024, f (1024 * k + l.val)
/-- The running sum after key tile k: started from zero at tile 0, one tile added per step. -/
def tileAcc (f : ℕ → EReal) : ℕ → EReal
  | 0 => 0 + tile f 0
  | k + 1 => tileAcc f k + tile f (k + 1)

/-- A tile's contribution is the sum of its 1024 terms, indexed by the naturals below 1024. -/
theorem tile_eq_sum_range (f : ℕ → EReal) (k : ℕ) :
    tile f k = ∑ l ∈ Finset.range 1024, f (1024 * k + l) := by
  rw [tile, zero_add, Fin.sum_univ_eq_sum_range (fun l => f (1024 * k + l)) 1024]

/-- After tile `k` the running sum is the sum of the first `1024 (k + 1)` terms: the first tile added to zero
    is the first 1024 terms, and a further tile appends the next 1024. -/
theorem tileAcc_eq_sum_range (f : ℕ → EReal) (k : ℕ) :
    tileAcc f k = ∑ j ∈ Finset.range (1024 * (k + 1)), f j := by
  induction k with
  | zero =>
    rw [tileAcc, zero_add, tile_eq_sum_range]
    exact Finset.sum_congr rfl fun l _ => by rw [Nat.mul_zero, Nat.zero_add]
  | succ k ih =>
    rw [tileAcc, ih, tile_eq_sum_range, ← Finset.sum_range_add, ← Nat.mul_succ]

/-- After the twelfth tile the running sum is the sum of all 12288 terms (added to zero). -/
theorem tileAcc_last (f : ℕ → EReal) : tileAcc f 11 = 0 + ∑ j : Fin 12288, f j.val := by
  rw [tileAcc_eq_sum_range, zero_add, Fin.sum_univ_eq_sum_range f 12288]

end Cert.Attn.Tiles

end
-- ==== Proof.AttnIdeal.lean ====
/-
  The gate column at the ideal instance.

  With hn the normalised rows as the region finds them, the running sums after key tile k of query tile q, at row r,
  are the first k + 1 tiles of the terms σ(Σ_d hn[2048·q + r, d] · hn[j, d]), j = 0 … 12287, added up tile by tile from
  zero; after the twelfth tile that is the sum of all 12288 terms, and the gate column holds it times 1/12288.
-/
import proofs.«117570_j670014898399_1_alg».proof.Proof.AttnGate
import proofs.«117570_j670014898399_1_alg».proof.Proof.AttnPayload
import proofs.«117570_j670014898399_1_alg».proof.Proof.AttnTiles

set_option maxRecDepth 16384

noncomputable section

namespace Cert.KernelIdeal.AttnIdeal

open Cert.KernelIdeal Cert.KernelIdeal.Gen Cert.KernelIdeal.Attn Cert.KernelIdeal.AttnValue Cert.Attn.Tiles
open Idealize.ShloMosaic Idealize.ShloMosaic.TcCoe Idealize.SL.Sem
open Idealize.ShloMosaic.ValueIdx

variable (m : (ℓ : Loc nD τ sig) → Buf (Elt Ideal) ℓ)

/-- The normalised rows as the region finds them, and the two blocks a point reads, as arrays of extended reals. -/
abbrev rows (c : Dev nD) : Vec Ideal S12288x128 .bf16 := V m c main_v5
abbrev qblk (c : Dev nD) (t : Fin cfg0.N) : Vec Ideal S2048x128 .bf16 := iblk m c 0 t
abbrev kblk (c : Dev nD) (t : Fin cfg0.N) : Vec Ideal S1024x128 .bf16 := iblk m c 1 t

/-- Term j of query row i: the logistic of the two rows' inner product (zero outside the array, where nothing reads it). -/
def term (c : Dev nD) (i j : ℕ) : EReal :=
  if h : i < 12288 ∧ j < 12288 then
    Ideal.logistic (∑ d : Fin 128, rows m c (ix2 (⟨i, h.1⟩ : Fin 12288) d) * rows m c (ix2 (⟨j, h.2⟩ : Fin 12288) d))
  else 0

theorem term_of_lt (c : Dev nD) (i j : ℕ) (hi : i < 12288) (hj : j < 12288) :
    term m c i j = Ideal.logistic (∑ d : Fin 128, rows m c (ix2 (⟨i, hi⟩ : Fin 12288) d) * rows m c (ix2 (⟨j, hj⟩ : Fin 12288) d)) := by
  unfold term; rw [dif_pos ⟨hi, hj⟩]

/-- The query block at point t is rows 2048·(t / 12) + r, the key block rows 1024·(t % 12) + l. -/
theorem qblk_apply (c : Dev nD) (t : Fin cfg0.N) (r : Fin 2048) (d : Fin 128) :
    qblk m c t (ix2 r d) = rows m c (ix2 (⟨2048 * (t.val / 12) + r.val, by have := lt_of_lt_of_eq t.isLt (show cfg0.N = 72 from N_0); have := r.isLt; omega⟩ : Fin 12288) d) :=
  iblk0_apply m c t r d
theorem kblk_apply (c : Dev nD) (t : Fin cfg0.N) (l : Fin 1024) (d : Fin 128) :
    kblk m c t (ix2 l d) = rows m c (ix2 (⟨1024 * (t.val % 12) + l.val, by omega⟩ : Fin 12288) d) :=
  iblk1_apply m c t l d

/-- One point's tile sums, at row r: tile t % 12 of the terms of query row 2048·(t / 12) + r. -/
theorem tile_eq (c : Dev nD) (t : Fin cfg0.N) (r : Fin 2048) :
    ((0 : EReal) + ∑ l : Fin 1024, Ideal.logistic (∑ d : Fin 128, qblk m c t (ix2 r d) * kblk m c t (ix2 l d)))
      = tile (term m c (2048 * (t.val / 12) + r.val)) (t.val % 12) := by
  have hN : t.val < 72 := lt_of_lt_of_eq t.isLt (show cfg0.N = 72 from N_0)
  unfold tile
  refine congrArg (fun x => (0 : EReal) + x) (Finset.sum_congr rfl fun l _ => ?_)
  rw [term_of_lt m c _ _ (by have := r.isLt; omega) (by have := l.isLt; omega)]
  refine congrArg Ideal.logistic (Finset.sum_congr rfl fun d _ => ?_)
  rw [qblk_apply, kblk_apply]

theorem accAt_congr (c : Dev nD) (n n' : ℕ) (h : n = n') (hn : n < cfg0.N) (hn' : n' < cfg0.N) :
    accAt m c n hn = accAt m c n' hn' := by subst h; rfl

/-- The running sums after key tile k of query tile q, at row r. -/
theorem accAt_apply (c : Dev nD) (q : ℕ) (hq : q < 6) (r : Fin 2048) : ∀ (k : ℕ) (hk : k < 12),
    accAt m c (12 * q + k) (by rw [show cfg0.N = 72 from N_0]; omega) (ix2 r (0 : Fin 1))
      = tileAcc (term m c (2048 * q + r.val)) k
  | 0, hk => by
    have hN : 12 * q + 0 < cfg0.N := by rw [show cfg0.N = 72 from N_0]; omega
    have h0 : (⟨12 * q + 0, hN⟩ : Fin cfg0.N).val % 12 = 0 := by show (12 * q + 0) % 12 = 0; omega
    rw [accAt_first m c ⟨12 * q + 0, hN⟩ h0, pay2_apply, pay1_apply, tile_eq]
    show (0 : EReal) + tile (term m c (2048 * ((12 * q + 0) / 12) + r.val)) ((12 * q + 0) % 12) = 0 + tile (term m c (2048 * q + r.val)) 0
    rw [show (12 * q + 0) / 12 = q by omega, show (12 * q + 0) % 12 = 0 by omega]
  | k + 1, hk => by
    have hN : 12 * q + (k + 1) < cfg0.N := by rw [show cfg0.N = 72 from N_0]; omega
    have h0 : ¬ (⟨12 * q + (k + 1), hN⟩ : Fin cfg0.N).val % 12 = 0 := by show ¬ (12 * q + (k + 1)) % 12 = 0; omega
    rw [accAt_next m c ⟨12 * q + (k + 1), hN⟩ h0, pay2_apply, tile_eq]
    rw [accAt_congr m c _ (12 * q + k) (by show 12 * q + (k + 1) - 1 = 12 * q + k; omega) _ (by rw [show cfg0.N = 72 from N_0]; omega),
      accAt_apply c q hq r k (by omega)]
    show tileAcc (term m c (2048 * q + r.val)) k + tile (term m c (2048 * ((12 * q + (k + 1)) / 12) + r.val)) ((12 * q + (k + 1)) % 12)
      = tileAcc (term m c (2048 * q + r.val)) k + tile (term m c (2048 * q + r.val)) (k + 1)
    rw [show (12 * q + (k + 1)) / 12 = q by omega, show (12 * q + (k + 1)) % 12 = k + 1 by omega]

/-- THE GATE COLUMN: row i holds the sum over all rows j of the logistic of the inner products, times 1/12288. -/
theorem gate_apply (c : Dev nD) (i : Fin 12288) :
    gateCol m c (ix2 i (0 : Fin 1))
      = ((0 : EReal) + ∑ j : Fin 12288, Ideal.logistic (∑ d : Fin 128, rows m c (ix2 i d) * rows m c (ix2 j d)))
          * (((1 / 12288 : ℝ) : ℝ) : EReal) := by
  have hi := i.isLt
  have e : i = (⟨2048 * (i.val / 2048) + i.val % 2048, by omega⟩ : Fin 12288) := Fin.ext (by show i.val = 2048 * (i.val / 2048) + i.val % 2048; omega)
  have hg := gateCol_apply m c ⟨i.val / 2048, by omega⟩ ⟨i.val % 2048, Nat.mod_lt _ (by decide)⟩
  rw [← e] at hg
  rw [hg]
  unfold outAt
  rw [pay3_apply]
  refine congrArg (fun x => x * (((1 / 12288 : ℝ) : ℝ) : EReal)) ?_
  rw [accAt_apply m c (i.val / 2048) (by omega) ⟨i.val % 2048, Nat.mod_lt _ (by decide)⟩ 11 (by decide), tileAcc_last]
  refine congrArg (fun x => (0 : EReal) + x) (Finset.sum_congr rfl fun j _ => ?_)
  rw [term_of_lt m c _ _ (by show 2048 * (i.val / 2048) + i.val % 2048 < 12288; omega) j.isLt]
  refine congrArg Ideal.logistic (Finset.sum_congr rfl fun d _ => ?_)
  rw [← e]

end Cert.KernelIdeal.AttnIdeal

end
-- ==== Proof.AttnHost.lean ====
/-
  The host lines of the kernel's program at the ideal instance, against the reference's stages.

  Before the region the program computes the normalised rows h / max(ε, ‖h‖), h = x·W, by the very operations of the
  reference (then a change of float format, the identity on extended reals). After the region it computes the graph
  convolution term by the very operations of the reference, and multiplies it, entry by entry, with the gate column
  broadcast along the rows. Both facts are read off the lines' fold; the operations' dimension records of the two
  programs are equal field by field.
-/
import proofs.«117570_j670014898399_1_alg».proof.Proof.AttnData
import proofs.«117570_j670014898399_1_alg».proof.Proof.RefRead
import Idealize.ShloMosaic.Lib.StableHlo.Run
import Idealize.ShloMosaic.Lib.ValueIdx
import Idealize.ShloMosaic.Lib.Pipeline.Value

set_option maxRecDepth 16384

noncomputable section

namespace Cert.KernelIdeal.AttnHost

open Cert.KernelIdeal Cert.KernelIdeal.Gen Cert.KernelIdeal.Attn
open Idealize.ShloMosaic Idealize.ShloMosaic.TcCoe Idealize.SL.Sem
open Idealize.ShloMosaic.StableHlo
open Idealize.ShloMosaic.ValueIdx

/-- The normalised rows the region reads are the reference's, in the narrower float format. -/
theorem rows_eq (W : Valuation τ sig (Elt Ideal)) :
    (StableHlo.after (List.flatten (linesBefore (F := Ideal))) W (Proc.devRef .tc main_v5) : FVec Ideal S12288x128 .bf16)
      = truncf (F := Ideal) .bf16 (Cert.ReferenceIdeal.ReadP.val_main_v4 (F := Ideal) (W (Proc.devRef .tc main_arg0)) (W (Proc.devRef .tc main_arg2)) : FVec Ideal S12288x128 .f32) bitsLt_bf16_f32 := by
  simp only [linesBefore, hostOps0, hostOps0_1, hostOps0_2, hostOps0_3, hostOps0_4, List.flatten_cons, List.flatten_nil, List.append_nil, List.cons_append, List.nil_append]
  after_results_simp
  unfold Cert.ReferenceIdeal.ReadP.val_main_v4 Cert.ReferenceIdeal.ReadP.val_main_v3 Cert.ReferenceIdeal.ReadP.val_main_v2 Cert.ReferenceIdeal.ReadP.val_main_call1_v1 Cert.ReferenceIdeal.ReadP.val_main_call1_v0 Cert.ReferenceIdeal.ReadP.val_main_cst Cert.ReferenceIdeal.ReadP.val_main_v1 Cert.ReferenceIdeal.ReadP.val_main_call0_v2 Cert.ReferenceIdeal.ReadP.val_main_call0_v1 Cert.ReferenceIdeal.ReadP.val_main_call0_cst Cert.ReferenceIdeal.ReadP.val_main_call0_v0 Cert.ReferenceIdeal.ReadP.val_main_v0
  rfl

/-! ## The three lines of the called function read and write their buffers at the values' own types

Its operations carry each operand from its buffer's type to the value's type and the result back, along an equality of
types that holds by computation; each such transport is the identity. -/

theorem toBuf_v21 (v : (⟨S12288, .f32⟩ : BufTy).Contents (Elt Ideal)) :
    (StableHlo.TRef.of (sig := sig) (T := ⟨S12288, .f32⟩) main_v21).toBuf v = v := rfl
theorem ofBuf_v19 (v : main_v19.ty.Contents (Elt Ideal)) :
    (StableHlo.TRef.of (sig := sig) (T := ⟨S12288, .i1⟩) main_v19).ofBuf v = v := rfl
theorem ofBuf_v20 (v : main_v20.ty.Contents (Elt Ideal)) :
    (StableHlo.TRef.of (sig := sig) (T := ⟨S12288, .f32⟩) main_v20).ofBuf v = v := rfl
theorem ofBuf_c2v1 (v : main_call2_v1.ty.Contents (Elt Ideal)) :
    (StableHlo.TRef.of (sig := sig) (T := ⟨S12288, .f32⟩) main_call2_v1).ofBuf v = v := rfl
theorem toBuf_c2v1 (v : (⟨S12288, .f32⟩ : BufTy).Contents (Elt Ideal)) :
    (StableHlo.TRef.of (sig := sig) (T := ⟨S12288, .f32⟩) main_call2_v1).toBuf v = v := rfl
theorem ofBuf_c2v0 (v : main_call2_v0.ty.Contents (Elt Ideal)) :
    (StableHlo.TRef.of (sig := sig) (T := ⟨S_, .f32⟩) main_call2_v0).ofBuf v = v := rfl
theorem toBuf_c2v0 (v : (⟨S_, .f32⟩ : BufTy).Contents (Elt Ideal)) :
    (StableHlo.TRef.of (sig := sig) (T := ⟨S_, .f32⟩) main_call2_v0).toBuf v = v := rfl
theorem ofBuf_cst3 (v : main_cst_3.ty.Contents (Elt Ideal)) :
    (StableHlo.TRef.of (sig := sig) (T := ⟨S_, .f32⟩) main_cst_3).ofBuf v = v := rfl

set_option maxRecDepth 200000 in
set_option maxHeartbeats 4000000 in
/-- The last two lines: the result is the convolution term times the gate column broadcast along the rows. -/
theorem result_eq (W : Valuation τ sig (Elt Ideal)) :
    (StableHlo.after (List.flatten (linesAfter (F := Ideal))) W (Proc.devRef .tc main_v55) : FVec Ideal S12288x128 .f32)
      = mulf (F := Ideal) (s := S12288x128) (φ := .f32) (StableHlo.after (List.flatten (linesAfter (F := Ideal))) W (Proc.devRef .tc main_v53))
          (broadcastInDim (s := S12288x1) (α := Ideal .f32) S12288x128 ![0, 1] bcast_S12288x1_S12288x128_0_1 (W (Proc.devRef .tc main_v6))) := by
  simp only [linesAfter, hostOps1, hostOps1_1, hostOps1_2, List.flatten_cons, List.flatten_nil, List.append_nil, List.cons_append, List.nil_append]
  after_results_simp

set_option maxRecDepth 200000 in
set_option maxHeartbeats 4000000 in
/-- The convolution term is the reference's stage, computed from the same four arguments: the same operations in the
    same order, over dimension records that are equal field by field. The two index vectors are each a joined pair,
    whose two parts are read off the lines one operation at a time. -/
theorem conv_eq (W : Valuation τ sig (Elt Ideal)) :
    (StableHlo.after (List.flatten (linesAfter (F := Ideal))) W (Proc.devRef .tc main_v53) : FVec Ideal S12288x128 .f32)
      = Cert.ReferenceIdeal.ReadP.val_main_v62 (F := Ideal) (W (Proc.devRef .tc main_arg0)) (W (Proc.devRef .tc main_arg1)) (W (Proc.devRef .tc main_arg3)) (W (Proc.devRef .tc main_arg4)) := by
  simp only [linesAfter, hostOps1, hostOps1_1, hostOps1_2, List.flatten_cons, List.flatten_nil, List.append_nil, List.cons_append, List.nil_append]
  after_results_simp
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [toBuf_v21, ofBuf_v19, ofBuf_v20, ofBuf_c2v1, toBuf_c2v1, ofBuf_c2v0, toBuf_c2v0, ofBuf_cst3]
  unfold Cert.ReferenceIdeal.ReadP.val_main_v62 Cert.ReferenceIdeal.ReadP.val_main_v61 Cert.ReferenceIdeal.ReadP.val_main_v60 Cert.ReferenceIdeal.ReadP.val_main_v59 Cert.ReferenceIdeal.ReadP.val_main_v58 Cert.ReferenceIdeal.ReadP.val_main_v57 Cert.ReferenceIdeal.ReadP.val_main_cst_13 Cert.ReferenceIdeal.ReadP.val_main_v56 Cert.ReferenceIdeal.ReadP.val_main_v55 Cert.ReferenceIdeal.ReadP.val_main_v54 Cert.ReferenceIdeal.ReadP.val_main_v53 Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_c_12 Cert.ReferenceIdeal.ReadP.val_main_v48 Cert.ReferenceIdeal.ReadP.val_main_v47 Cert.ReferenceIdeal.ReadP.val_main_c_11 Cert.ReferenceIdeal.ReadP.val_main_v46 Cert.ReferenceIdeal.ReadP.val_main_v45 Cert.ReferenceIdeal.ReadP.val_main_v44 Cert.ReferenceIdeal.ReadP.val_main_v43 Cert.ReferenceIdeal.ReadP.val_main_v42 Cert.ReferenceIdeal.ReadP.val_main_v41 Cert.ReferenceIdeal.ReadP.val_main_v40 Cert.ReferenceIdeal.ReadP.val_main_c_10 Cert.ReferenceIdeal.ReadP.val_main_v39 Cert.ReferenceIdeal.ReadP.val_main_v38 Cert.ReferenceIdeal.ReadP.val_main_c_9 Cert.ReferenceIdeal.ReadP.val_main_v37 Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_c_8 Cert.ReferenceIdeal.ReadP.val_main_v32 Cert.ReferenceIdeal.ReadP.val_main_v31 Cert.ReferenceIdeal.ReadP.val_main_c Cert.ReferenceIdeal.ReadP.val_main_v30 Cert.ReferenceIdeal.ReadP.val_main_call2_v1 Cert.ReferenceIdeal.ReadP.val_main_call2_v0 Cert.ReferenceIdeal.ReadP.val_main_cst_7 Cert.ReferenceIdeal.ReadP.val_main_v29 Cert.ReferenceIdeal.ReadP.val_main_v28 Cert.ReferenceIdeal.ReadP.val_main_v27 Cert.ReferenceIdeal.ReadP.val_main_cst_6 Cert.ReferenceIdeal.ReadP.val_main_v26 Cert.ReferenceIdeal.ReadP.val_main_v25 Cert.ReferenceIdeal.ReadP.val_main_v24 Cert.ReferenceIdeal.ReadP.val_main_cst_5 Cert.ReferenceIdeal.ReadP.val_main_v23 Cert.ReferenceIdeal.ReadP.val_main_cst_4 Cert.ReferenceIdeal.ReadP.val_main_v22 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_v16
  rfl

/-- The broadcast of a column along the rows, read at an entry. -/
theorem bcast_col_apply (g : FVec Ideal S12288x1 .f32) (i : Fin 12288) (k : Fin 128) :
    broadcastInDim S12288x128 ![0, 1] bcast_S12288x1_S12288x128_0_1 g (ix2 i k) = g (ix2 i (0 : Fin 1)) :=
  broadcastInDim_apply _ _ g (ix2 i k) (ix2 i (0 : Fin 1)) (fun a => by
    match a with
    | ⟨0, _⟩ => rfl
    | ⟨1, _⟩ => rfl)

end Cert.KernelIdeal.AttnHost

end
-- ==== Proof.RefSide.lean ====
import proofs.«117570_j670014898399_1_alg».proof.Proof.RefRead
import Idealize.ShloMosaic.Lib.ValueIdx
import Idealize.ShloMosaic.Lib.Pipeline.Value
import Idealize.ShloMosaic.PureOps.Ideal.Laws

/-!
  The reference side, read at one element.

  From `x0 : f32[12288,128]` and the attention weight `x2 : f32[128,128]` the reference forms the row-normalised
  projection `hn` (the stage `val_main_v4`, kept opaque here) and the gate

      gate i = (0 + Σ_j logistic (Σ_d hn[i,d] · hn[j,d])) · (1/12288),

  where the logistic is spelt as negate, exponential, add one, divide one by the sum; the outer sum starts from the
  zero word; and the division by the word of `12288.0` is, on every extended real, the product with the real
  `1/12288`. The result is the stage `val_main_v62` (kept opaque) times the gate of its row.
-/

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx (ix1 ix2)

/-! ## The two constants that are not zero -/

/-- The f32 word `0x3F800000` denotes the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The f32 word `0x46400000` (`1.5 · 2^13`) denotes the real `12288`. -/
theorem ofBits_12288 : Ideal.ofBits .f32 0x46400000#32 = ((12288 : ℝ) : EReal) := by
  simp [Ideal.ofBits, Ideal.ieee, -EReal.coe_mul]; norm_num

/-! ## The score, the logistic of the score, the gate -/

/-- The score of rows `i` and `j`: the second factor of the product is the transpose of the first, so the
    contraction pairs row `i` with row `j` of the one normalised array. -/
theorem score_apply (x0 : (⟨S12288x128, .f32⟩ : BufTy).Contents (Elt Ideal)) (x2 : (⟨S128x128, .f32⟩ : BufTy).Contents (Elt Ideal))
    (i j : Fin 12288) :
    val_main_v6 (F := Ideal) x0 x2 (ix2 i j)
      = ∑ d : Fin 128, val_main_v4 (F := Ideal) x0 x2 (ix2 i d) * val_main_v4 (F := Ideal) x0 x2 (ix2 j d) := by
  rw [val_main_v6_apply]
  refine Finset.sum_congr rfl fun d _ => ?_
  rw [val_main_v5_apply]
  have e1 : lidx_main_v6 (ix2 i j) d = ix2 i d :=
    funext fun a => Fin.ext (by match a with | ⟨0, _⟩ => rfl | ⟨1, _⟩ => rfl)
  have e2 : idx_main_v5 (ridx_main_v6 (ix2 i j) d) = ix2 j d :=
    funext fun a => Fin.ext (by match a with | ⟨0, _⟩ => rfl | ⟨1, _⟩ => rfl)
  rw [e1, e2]

/-- Negate, exponential, add one, divide one by it: the logistic function of the score. -/
theorem logit_apply (x0 : (⟨S12288x128, .f32⟩ : BufTy).Contents (Elt Ideal)) (x2 : (⟨S128x128, .f32⟩ : BufTy).Contents (Elt Ideal))
    (i j : Fin 12288) :
    val_main_v12 (F := Ideal) x0 x2 (ix2 i j)
      = Ideal.logistic (∑ d : Fin 128, val_main_v4 (F := Ideal) x0 x2 (ix2 i d) * val_main_v4 (F := Ideal) x0 x2 (ix2 j d)) := by
  rw [val_main_v12_apply, val_main_v11_apply, val_main_cst_1_apply, val_main_v10_apply, val_main_v9_apply,
    val_main_cst_0_apply, val_main_v8_apply, val_main_v7_apply, score_apply]
  simp only [Ideal.hostDivf_def, Ideal.addf_def, Ideal.hostUnary_exp_def, Ideal.hostNegf_def, Ideal.negf_def,
    Ideal.ofBits_def, ofBits_one]
  rfl

theorem gate_apply (x0 : (⟨S12288x128, .f32⟩ : BufTy).Contents (Elt Ideal)) (x2 : (⟨S128x128, .f32⟩ : BufTy).Contents (Elt Ideal)) (i : Fin 12288) :
    val_main_v15 (F := Ideal) x0 x2 (ix1 i)
      = ((0 : EReal) + ∑ j : Fin 12288, Ideal.logistic (∑ d : Fin 128, val_main_v4 (F := Ideal) x0 x2 (ix2 i d) * val_main_v4 (F := Ideal) x0 x2 (ix2 j d)))
          * (((1 / 12288 : ℝ) : ℝ) : EReal) := by
  rw [val_main_v15_apply, val_main_v14_apply, val_main_cst_3_apply, val_main_v13_apply, val_main_cst_2_apply]
  simp only [Ideal.hostDivf_def, Ideal.ofBits_def, ofBits_12288, Ideal.ofBits_zero_f32]
  rw [Ideal.div_coe (by norm_num : (12288 : ℝ) ≠ 0)]
  have e : ∀ j : Fin 12288, idx_main_v13 (ix1 i) j = ix2 i j := fun j =>
    funext fun a => Fin.ext (by match a with | ⟨0, _⟩ => rfl | ⟨1, _⟩ => rfl)
  simp only [e, logit_apply]

/-- The result: the stage before the gate, times the gate of its row (the gate broadcast along the row). -/
theorem result_apply (x0 : (⟨S12288x128, .f32⟩ : BufTy).Contents (Elt Ideal)) (x1 : (⟨S2x393216, .i32⟩ : BufTy).Contents (Elt Ideal)) (x2 x3 : (⟨S128x128, .f32⟩ : BufTy).Contents (Elt Ideal)) (x4 : (⟨S128, .f32⟩ : BufTy).Contents (Elt Ideal)) (i : Fin 12288) (k : Fin 128) :
    val_main_v65 (F := Ideal) x0 x1 x2 x3 x4 (ix2 i k)
      = val_main_v62 (F := Ideal) x0 x1 x3 x4 (ix2 i k) * val_main_v15 (F := Ideal) x0 x2 (ix1 i) := by
  rw [val_main_v65_apply, val_main_v64_apply, val_main_v63_apply]
  have e : idx_main_v63 (idx_main_v64 (ix2 i k)) = ix1 i :=
    funext fun a => Fin.ext (by match a with | ⟨0, _⟩ => rfl)
  rw [e, Ideal.mulf_def]

end Cert.ReferenceIdeal.RefValue

end
-- ==== Proof.AttnBridge.lean ====
/-
  The two programs' results are one function of the arguments.

  The kernel's program ends with (convolution term) × (gate column broadcast along the rows); the convolution term is
  the reference's stage; the gate column's row i is (Σ_j σ(hn_i · hn_j)) · (1/12288) over the normalised rows hn, which
  are the reference's; and the reference's own gate is the same sum divided by 12288, which on every extended real is
  the product with 1/12288.
-/
import proofs.«117570_j670014898399_1_alg».proof.Proof.AttnIdeal
import proofs.«117570_j670014898399_1_alg».proof.Proof.AttnHost
import proofs.«117570_j670014898399_1_alg».proof.Proof.AttnFrame
import proofs.«117570_j670014898399_1_alg».proof.Proof.RefSide

set_option maxRecDepth 16384

noncomputable section

namespace Cert.KernelIdeal.AttnBridge

open Cert.KernelIdeal Cert.KernelIdeal.Gen Cert.KernelIdeal.Attn
open Idealize.ShloMosaic Idealize.ShloMosaic.TcCoe Idealize.SL.Sem
open Idealize.ShloMosaic.ValueIdx

variable (m : (ℓ : Loc nD τ sig) → Buf (Elt Ideal) ℓ)

/-- The normalised rows the region reads are the reference's stage, entry by entry. -/
theorem rows_apply (c : Dev nD) (j : Fin 12288) (d : Fin 128) :
    AttnIdeal.rows m c (ix2 j d)
      = Cert.ReferenceIdeal.ReadP.val_main_v4 (F := Ideal) (m (c, Proc.devRef .tc main_arg0)) (m (c, Proc.devRef .tc main_arg2)) (ix2 j d) := by
  have h := AttnHost.rows_eq (fun b => m (c, b))
  show (StableHlo.after (List.flatten (linesBefore (F := Ideal))) (fun b => m (c, b)) (Proc.devRef .tc main_v5) : FVec Ideal S12288x128 .bf16) (ix2 j d) = _
  rw [h]
  exact truncf_apply _ _ _

/-- THE RESULT of the kernel's program is the reference's result stage of the launch arguments. -/
theorem result_is_ref (c : Dev nD) :
    (StableHlo.after (List.flatten (linesAfter (F := Ideal))) (VN m c) (Proc.devRef .tc main_v55) : FVec Ideal S12288x128 .f32)
      = Cert.ReferenceIdeal.ReadP.val_main_v65 (F := Ideal) (m (c, Proc.devRef .tc main_arg0)) (m (c, Proc.devRef .tc main_arg1))
          (m (c, Proc.devRef .tc main_arg2)) (m (c, Proc.devRef .tc main_arg3)) (m (c, Proc.devRef .tc main_arg4)) := by
  obtain ⟨h0, h1, h2, h3, h4⟩ := VN_arg m c
  funext idx
  obtain ⟨i, k, rfl⟩ : ∃ (i : Fin 12288) (k : Fin 128), idx = ix2 i k := ⟨idx 0, idx 1, eq_ix2 idx⟩
  rw [AttnHost.result_eq (VN m c), mulf_apply, AttnHost.bcast_col_apply, AttnHost.conv_eq (VN m c), h0, h1, h3, h4, VN_gate m c,
    AttnIdeal.gate_apply m c i, Cert.ReferenceIdeal.RefValue.result_apply, Cert.ReferenceIdeal.RefValue.gate_apply]
  simp only [rows_apply]
  rfl

end Cert.KernelIdeal.AttnBridge

end
-- ==== Proof.lean ====
/-
  The certificate of the spatially gated graph block: a gate, per node, times a graph convolution.

  THE PROGRAMS. Both compute h = x·W_att, its rows normalised hn_i = h_i / max(ε, ‖h_i‖), the gate
  g_i = mean_j σ(hn_i · hn_j) over all 12288 nodes, the graph convolution term C (degrees by a scatter of ones, the
  symmetric normalisation, a gather, a scatter-add, the bias), and return C_{ik} · g_i. The reference takes the mean as
  one sum over j divided by 12288. The kernel computes the gate in a pipelined region on a 6 × 12 grid: for query tile q
  (2048 rows) and key tile k (1024 rows) it adds the row sums of σ(q·kᵀ) into a carried column, reset at k = 0, and at
  k = 11 stores the column times the constant 1/12288 into the result window; both input windows read one array, the
  normalised rows. Everything else is host lines, the same in both programs.

  THE CLAIMS. The frames of the two kernel programs (the printed one at the word level, the idealised one at the
  extended reals) are the library's run of a region with host lines around it, for windows that share an array
  (Proof/LibSharedTail.lean), over the body's three cases (first key tile, middle, last: Proof/AttnRun*.lean,
  Proof/AttnBody.lean) and the split of the rows' buffer between the two input windows (Proof/AttnLaunch.lean); the
  reference's frame is its run read back. The one rewrite of the idealisation names the constant 1/12288. At the ideal
  instance the results agree: twelve tile sums added up from zero are the whole sum (addition of extended reals is
  commutative and associative; Proof/AttnTiles.lean, Proof/AttnIdeal.lean), a quotient by 12288 is the product with
  1/12288 on every extended real (Proof/RefSide.lean), and the host lines of the two programs are the same operations
  (Proof/AttnHost.lean, Proof/AttnBridge.lean). No finiteness of the inputs is used.
-/
import proofs.«117570_j670014898399_1_alg».proof.Defs
import proofs.«117570_j670014898399_1_alg».proof.Proof.Gen.Kernel
import proofs.«117570_j670014898399_1_alg».proof.Proof.Gen.KernelIdeal
import proofs.«117570_j670014898399_1_alg».proof.Proof.Gen.ReferenceIdeal
import proofs.«117570_j670014898399_1_alg».proof.Proof.Gen.Pre_finite_inputs
import proofs.«117570_j670014898399_1_alg».proof.Proof.AttnBody
import proofs.«117570_j670014898399_1_alg».proof.Proof.AttnFrame
import proofs.«117570_j670014898399_1_alg».proof.Proof.WAttnBody
import proofs.«117570_j670014898399_1_alg».proof.Proof.WAttnFrame
import proofs.«117570_j670014898399_1_alg».proof.Proof.AttnBridge
import proofs.«117570_j670014898399_1_alg».proof.Proof.RefRead
import Idealize.ShloMosaic.PureOps.IdealRules
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

/-- The printed kernel program runs and leaves its arguments as launched. -/
theorem frame_k : Cert.frame_Kernel := fun m ρ _ =>
  Cert.Kernel.Attn.frame (F := Bits) m ρ (fun c => Cert.Kernel.Attn.body_obligation m c)

/-- So does its idealisation. -/
theorem frame_ki : Cert.frame_KernelIdeal := fun m ρ _ =>
  Cert.KernelIdeal.Attn.frame (F := Ideal) m ρ (fun c => Cert.KernelIdeal.Attn.body_obligation m c)

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation's one rewrite: the constant's name denotes 1/12288. -/
theorem preserves : Cert.preserves_Kernel_KernelIdeal :=
  IdealRules.named_const.statement Cert.KernelIdeal.κ "inv_12288" .f32 0x38AAAAAB#32 ((1 / 12288 : ℝ) : EReal) rfl

/-- At the ideal instance both programs end with the reference's result stage of the (agreeing) arguments. -/
theorem algebraic : Cert.algebraic_KernelIdeal_ReferenceIdeal := by
  intro m ρ m' ρ' _ hagree
  refine ⟨fun c => Cert.ReferenceIdeal.ReadP.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.AttnBridge.result_is_ref m c), (h c).2⟩)
      (Cert.KernelIdeal.Attn.run_result (F := Ideal) m ρ (fun c => Cert.KernelIdeal.Attn.body_obligation m c))
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v65_eq, (hagree c).1, (hagree c).2.1, (hagree c).2.2.1, (hagree c).2.2.2.1, (hagree c).2.2.2.2]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
